-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x256 : Shape := ⟨2, ![1000000, 256]⟩
abbrev S1000000 : Shape := ⟨1, ![1000000]⟩
abbrev S_ : Shape := ⟨0, ![]⟩

class Facts : Prop where
  bcast_S_S1000000x256 : S_.BroadcastsInDim S1000000x256 (![] : Fin 0 → Fin S1000000x256.rank)
  reducesTo_S1000000x256_S_d0_1 : S1000000x256.ReducesTo [0, 1] S_
  h_S_ : 0 < S_.numel

variable [Facts]

def fn {F : FTy → Type} [FloatOps F] (main_arg0 : FVec F S1000000x256 .f32) (main_arg1 : IVec S1000000 32) : IVec S_ 1 :=
  let main_v0 : FVec F S1000000x256 .f32 := Host.absf main_arg0
  let main_cst : FVec F S_ .f32 := constant S_ .f32 0x7F800000#32
  let main_v1 : FVec F S1000000x256 .f32 := broadcastInDim S1000000x256 ![] bcast_S_S1000000x256 main_cst
  let main_v2 : IVec S1000000x256 1 := cmpf .olt main_v0 main_v1
  let main_c : IVec S_ 1 := constantI S_ 1 1#1
  let main_v3 : IVec S_ 1 := (fun x v => Host.reduce IntOp.andi x v reducesTo_S1000000x256_S_d0_1 h_S_) main_v2 main_c
  main_v3
-- ==== Kernel.lean ====
abbrev S1000000x256 : Shape := ⟨2, ![1000000, 256]⟩
abbrev S1000000 : Shape := ⟨1, ![1000000]⟩
abbrev S2x500000x256 : Shape := ⟨3, ![2, 500000, 256]⟩
abbrev S2x500000x1 : Shape := ⟨3, ![2, 500000, 1]⟩
abbrev S2x16x256 : Shape := ⟨3, ![2, 16, 256]⟩
abbrev S2x16x1 : Shape := ⟨3, ![2, 16, 1]⟩
abbrev S1x10000x256 : Shape := ⟨3, ![1, 10000, 256]⟩
abbrev S1x10000x1 : Shape := ⟨3, ![1, 10000, 1]⟩
abbrev S1x16x256 : Shape := ⟨3, ![1, 16, 256]⟩
abbrev S1x16x1 : Shape := ⟨3, ![1, 16, 1]⟩
abbrev S16x256 : Shape := ⟨2, ![16, 256]⟩
abbrev S16x1 : Shape := ⟨2, ![16, 1]⟩
abbrev S10000x1 : Shape := ⟨2, ![10000, 1]⟩
abbrev S10000x16 : Shape := ⟨2, ![10000, 16]⟩
abbrev S10000x256 : Shape := ⟨2, ![10000, 256]⟩
abbrev S16 : Shape := ⟨1, ![16]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S1000000x256, .f32⟩
  | .hbm, ⟨1, _⟩ => ⟨S1000000, .i32⟩
  | .hbm, ⟨2, _⟩ => ⟨S2x500000x256, .f32⟩
  | .hbm, ⟨3, _⟩ => ⟨S2x500000x1, .i32⟩
  | .hbm, ⟨4, _⟩ => ⟨S2x16x256, .f32⟩
  | .hbm, ⟨5, _⟩ => ⟨S2x16x1, .f32⟩
  | .hbm, ⟨6, _⟩ => ⟨S_, .f32⟩
  | .hbm, ⟨7, _⟩ => ⟨S16x256, .f32⟩
  | .hbm, ⟨8, _⟩ => ⟨S_, .f32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S16x256, .f32⟩
  | .hbm, ⟨14, _⟩ => ⟨S16x256, .f32⟩
  | .local _ .vmem, ⟨0, _⟩ => ⟨S1x10000x256, .f32⟩
  | .local _ .vmem, ⟨1, _⟩ => ⟨S1x10000x256, .f32⟩
  | .local _ .vmem, ⟨2, _⟩ => ⟨S1x10000x1, .i32⟩
  | .local _ .vmem, ⟨3, _⟩ => ⟨S1x10000x1, .i32⟩
  | .local _ .vmem, ⟨4, _⟩ => ⟨S1x16x256, .f32⟩
  | .local _ .vmem, ⟨5, _⟩ => ⟨S1x16x256, .f32⟩
  | .local _ .vmem, ⟨6, _⟩ => ⟨S1x16x1, .f32⟩
  | .local _ .vmem, ⟨7, _⟩ => ⟨S1x16x1, .f32⟩
  | _, _ => ⟨S1000000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1000000x256_S2x500000x256 : S1000000x256.ShapeCasts S2x500000x256
  shapeCasts_S1000000_S2x500000x1 : S1000000.ShapeCasts S2x500000x1
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  shapeCasts_S16x256_S1x16x256 : S16x256.ShapeCasts S1x16x256
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  inb_S1x10000x1_S1x10000x1_0_0_0 : ∀ a, (![0, 0, 0] : Fin 3 → Nat) a + S1x10000x1.size a ≤ S1x10000x1.size a
  h_S1x10000x1 : 0 < S1x10000x1.numel
  shapeCasts_S1x10000x1_S10000x1 : S1x10000x1.ShapeCasts S10000x1
  iota_S10000x16_d1_w32 : S10000x16.Iotas .tc 32 [1]
  broadcasts_S10000x1_S10000x16 : S10000x1.Broadcasts S10000x16
  natLt_1_32 : 1 < 32
  inb_S1x10000x256_S1x10000x256_0_0_0 : ∀ a, (![0, 0, 0] : Fin 3 → Nat) a + S1x10000x256.size a ≤ S1x10000x256.size a
  h_S1x10000x256 : 0 < S1x10000x256.numel
  shapeCasts_S1x10000x256_S10000x256 : S1x10000x256.ShapeCasts S10000x256
  reduces_S10000x16_S16 : S10000x16.Reduces [0] S16
  shapeCasts_S16_S16x1 : S16.ShapeCasts S16x1
  reducesTo_S2x16x256_S16x256_d0 : S2x16x256.ReducesTo [0] S16x256
  h_S_ : 0 < S_.numel
  reducesTo_S2x16x1_S16x1_d0 : S2x16x1.ReducesTo [0] S16x1
  bcast_S_S16x1 : S_.BroadcastsInDim S16x1 (![] : Fin 0 → Fin S16x1.rank)
  bcast_S16x1_S16x256_0_1 : S16x1.BroadcastsInDim S16x256 (![0, 1] : Fin 2 → Fin S16x256.rank)
  dot_S10000x16_S10000x256_S16x256_0_0_1_1_n_n_wf : DotDims.WF S10000x16 S10000x256 S16x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x256.size a ≤ S2x500000x256.size a
  hwx0_0 : ∀ i : grid0.Coords, EltTy.bits .f32 = 32 ∨ (Rect.block (s := S2x500000x256) S1x10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10000x1.size a ≤ S2x500000x1.size a
  hwx0_1 : ∀ i : grid0.Coords, EltTy.bits .i32 = 32 ∨ (Rect.block (s := S2x500000x1) S1x10000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256.size a ≤ S2x16x256.size a
  hwx0_2 : ∀ i : grid0.Coords, EltTy.bits .f32 = 32 ∨ (Rect.block (s := S2x16x256) S1x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1.size a ≤ S2x16x1.size a
  hwx0_3 : ∀ i : grid0.Coords, EltTy.bits .f32 = 32 ∨ (Rect.block (s := S2x16x1) S1x16x1.size (cc0_transform_3 i) (hinb0_3 i)).WholeWords (EltTy.packing .f32)

variable [Facts₀]

def dot_S10000x16_S10000x256_S16x256_0_0_1_1_n_n : DotDims S10000x16 S10000x256 S16x256 where
  lhsContracting := [0]
  rhsContracting := [0]
  lhsNonContracting := [1]
  rhsNonContracting := [1]
  lhsBatch := []
  rhsBatch := []
  wf := dot_S10000x16_S10000x256_S16x256_0_0_1_1_n_n_wf

abbrev win0_0 : Pipeline.Window sig grid0 :=
  Pipeline.Window.ofSpec (Memref.whole main_v0) S1x10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x256 : Shape := ⟨2, ![1000000, 256]⟩
abbrev S1000000 : Shape := ⟨1, ![1000000]⟩
abbrev S_ : Shape := ⟨0, ![]⟩
abbrev S16x256 : Shape := ⟨2, ![16, 256]⟩
abbrev S1000000x1 : Shape := ⟨2, ![1000000, 1]⟩
abbrev S16 : Shape := ⟨1, ![16]⟩
abbrev S16x1 : Shape := ⟨2, ![16, 1]⟩

abbrev nBuf : Space → Nat
  | .hbm => 18
  | .vmem => 0
  | .smem => 0
  | _ => 0

abbrev bufTy : (tb : Table) → Fin (tcTables nBuf tb) → BufTy
  | .hbm, ⟨0, _⟩ => ⟨S1000000x256, .f32⟩
  | .hbm, ⟨1, _⟩ => ⟨S1000000, .i32⟩
  | .hbm, ⟨2, _⟩ => ⟨S_, .f32⟩
  | .hbm, ⟨3, _⟩ => ⟨S16x256, .f32⟩
  | .hbm, ⟨4, _⟩ => ⟨S1000000x1, .i32⟩
  | .hbm, ⟨5, _⟩ => ⟨S16x256, .f32⟩
  | .hbm, ⟨6, _⟩ => ⟨S_, .f32⟩
  | .hbm, ⟨7, _⟩ => ⟨S1000000, .f32⟩
  | .hbm, ⟨8, _⟩ => ⟨S_, .f32⟩
  | .hbm, ⟨9, _⟩ => ⟨S16, .f32⟩
  | .hbm, ⟨10, _⟩ => ⟨S1000000x1, .i32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16x1, .f32⟩
  | .hbm, ⟨16, _⟩ => ⟨S16x256, .f32⟩
  | .hbm, ⟨17, _⟩ => ⟨S16x256, .f32⟩
  | _, _ => ⟨S1000000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S16x256 : S_.BroadcastsInDim S16x256 (![] : Fin 0 → Fin S16x256.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  scatter_S16x256_S1000000x1_S1000000x256_1_0_0_1_wf : ScatterDims.WF S16x256 S1000000x1 S1000000x256 [1] [0] [0] 1
  scatter_S16_S1000000x1_S1000000_n_0_0_1_wf : ScatterDims.WF S16 S1000000x1 S1000000 [] [0] [0] 1

variable [Facts₀]

def scatter_S16x256_S1000000x1_S1000000x256_1_0_0_1 : ScatterDims S16x256 S1000000x1 S1000000x256 where
  updateWindowDims := [1]
  insertedWindowDims := [0]
  scatterDimsToOperandDims := [0]
  indexVectorDim := 1
  wf := scatter_S16x256_S1000000x1_S1000000x256_1_0_0_1_wf
def scatter_S16_S1000000x1_S1000000_n_0_0_1 : ScatterDims S16 S1000000x1 S1000000 where
  updateWindowDims := []
  insertedWindowDims := [0]
  scatterDimsToOperandDims := [0]
  indexVectorDim := 1
  wf := scatter_S16_S1000000x1_S1000000_n_0_0_1_wf

class Facts : Prop extends Facts₀ where

variable [Facts]
-- ==== Proof.Cases.lean ====
/-
  What one run of the body leaves in the two output blocks, as values.

  At the first point of each run of fifty (the tile index is zero) the body first stores zero blocks and then adds
  the tile's contribution to what it reads back, so it leaves the contribution added to zero; at every other point
  it adds the contribution to the blocks the previous point left. The contribution is the body's arithmetic as one
  term of the loaded blocks; this module only identifies which loaded blocks it is applied to.
-/
import proofs.«140087_j35725537968381_1_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem Cert.KernelIdeal Cert.KernelIdeal.Gen
open Idealize.ShloMosaic.Pipeline (Dat)

variable {F : FTy → Type} [FloatOps F]

theorem hz3 : (![0, 0, 0] : Fin 3 → Nat) = fun _ => 0 := funext fun a => by fin_cases a <;> rfl

/-- At a later point of a run the sums block is the body's update of the block the previous point left. -/
theorem sums_later (c : Dev nD) (i : grid0.Coords) (arg2 : Memref sig .tc .vmem S1x10000x256 .f32) (harg2 : arg2.IsWhole) (arg3 : Memref sig .tc .vmem S1x10000x1 .i32) (harg3 : arg3.IsWhole) (arg4 : Memref sig .tc .vmem S1x16x256 .f32) (harg4 : arg4.IsWhole) (arg5 : Memref sig .tc .vmem S1x16x1 .f32) (harg5 : arg5.IsWhole) (hc0 : ¬cond0_0 i)
    (x0 : Vec F S1x10000x256 .f32) (x1 : Vec F S1x10000x1 .i32) (xo2 : Vec F S1x16x256 .f32) (xo3 : Vec F S1x16x1 .f32) :
    out0_B_2 c i arg2 harg2 arg3 harg3 arg4 harg4 arg5 harg5 hc0 x0 x1 xo2 xo3 = k0_pay4 x1 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  rw [View.canon_unit_zero hz3]
  simp only [View.readAt_eq_ld, harg2.read_unread, harg3.read_unread, harg4.read_unread, harg5.read_unread, View.ld_unit_zero (S := S1x10000x1) hz3, View.ld_unit_zero (S := S1x10000x256) hz3, View.ld_unit_zero (S := S1x16x256) hz3, View.ld_unit_zero (S := S1x16x1) hz3]

/-- At a later point of a run the counts block is the body's update of the block the previous point left. -/
theorem counts_later (c : Dev nD) (i : grid0.Coords) (arg2 : Memref sig .tc .vmem S1x10000x256 .f32) (harg2 : arg2.IsWhole) (arg3 : Memref sig .tc .vmem S1x10000x1 .i32) (harg3 : arg3.IsWhole) (arg4 : Memref sig .tc .vmem S1x16x256 .f32) (harg4 : arg4.IsWhole) (arg5 : Memref sig .tc .vmem S1x16x1 .f32) (harg5 : arg5.IsWhole) (hc0 : ¬cond0_0 i)
    (x0 : Vec F S1x10000x256 .f32) (x1 : Vec F S1x10000x1 .i32) (xo2 : Vec F S1x16x256 .f32) (xo3 : Vec F S1x16x1 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  rw [View.canon_unit_zero hz3]
  simp only [View.readAt_eq_ld, harg2.read_unread, harg3.read_unread, harg4.read_unread, harg5.read_unread, View.ld_unit_zero (S := S1x10000x1) hz3, View.ld_unit_zero (S := S1x10000x256) hz3, View.ld_unit_zero (S := S1x16x256) hz3, View.ld_unit_zero (S := S1x16x1) hz3]

/-- At the first point of a run the sums block is the body's update of the zero block it has just stored. -/
theorem sums_first (c : Dev nD) (i : grid0.Coords) (arg2 : Memref sig .tc .vmem S1x10000x256 .f32) (harg2 : arg2.IsWhole) (arg3 : Memref sig .tc .vmem S1x10000x1 .i32) (harg3 : arg3.IsWhole) (arg4 : Memref sig .tc .vmem S1x16x256 .f32) (harg4 : arg4.IsWhole) (arg5 : Memref sig .tc .vmem S1x16x1 .f32) (harg5 : arg5.IsWhole) (hc0 : cond0_0 i)
    (x0 : Vec F S1x10000x256 .f32) (x1 : Vec F S1x10000x1 .i32) :
    out0_A_2 c i arg2 harg2 arg3 harg3 arg4 harg4 arg5 harg5 hc0 x0 x1 = k0_pay4 x1 x0 k0_pay1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x16x256) hz3, View.readCov_unit_zero (S := S1x16x256) _ hz3]
  simp only [View.readAt_eq_ld, harg2.read_unread, harg3.read_unread, harg4.read_unread, harg5.read_unread, View.ld_unit_zero (S := S1x10000x1) hz3, View.ld_unit_zero (S := S1x10000x256) hz3, View.ld_unit_zero (S := S1x16x256) hz3, View.ld_unit_zero (S := S1x16x1) hz3]

/-- At the first point of a run the counts block is the body's update of the zero block it has just stored. -/
theorem counts_first (c : Dev nD) (i : grid0.Coords) (arg2 : Memref sig .tc .vmem S1x10000x256 .f32) (harg2 : arg2.IsWhole) (arg3 : Memref sig .tc .vmem S1x10000x1 .i32) (harg3 : arg3.IsWhole) (arg4 : Memref sig .tc .vmem S1x16x256 .f32) (harg4 : arg4.IsWhole) (arg5 : Memref sig .tc .vmem S1x16x1 .f32) (harg5 : arg5.IsWhole) (hc0 : cond0_0 i)
    (x0 : Vec F S1x10000x256 .f32) (x1 : Vec F S1x10000x1 .i32) :
    out0_A_3 c i arg2 harg2 arg3 harg3 arg4 harg4 arg5 harg5 hc0 x0 x1 = k0_pay5 x1 k0_pay2 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x16x1) hz3, View.readCov_unit_zero (S := S1x16x1) _ hz3]
  simp only [View.readAt_eq_ld, harg2.read_unread, harg3.read_unread, harg4.read_unread, harg5.read_unread, View.ld_unit_zero (S := S1x10000x1) hz3, View.ld_unit_zero (S := S1x10000x256) hz3, View.ld_unit_zero (S := S1x16x256) hz3, View.ld_unit_zero (S := S1x16x1) hz3]

end Cert.KernelIdeal.Cases

end
-- ==== Proof.LibColumns.lean ====
/-
  Index facts for arrays whose long axis is the last one. A sum over the index set of an [n] array, or of a [1, n]
  array, is the sum over the n positions; a reduction over axis 0 of an [a, b] array, read at column q, runs over the
  entries (k, q); an [a, b] array summed over axis 0 at the ideal values is, at column q, the sum over k of those
  entries; and the 0-or-1 word of a comparison converts to the same real number whether it is first zero-extended
  to 32 bits and read signed, or read unsigned as it is.
-/
import Idealize.ShloMosaic.Lib.Pipeline.Value
import Idealize.ShloMosaic.Lib.ValueIdx
import Idealize.ShloMosaic.PureOps.Ideal.Laws

noncomputable section

namespace Cert.LibColumns

open Idealize.ShloMosaic Idealize.ShloMosaic.ValueIdx

/-- The index set of an [n] array is its n positions. -/
def idxEquiv1 {n : Nat} : (⟨1, ![n]⟩ : Shape).Idx ≃ Fin n where
  toFun i := i 0
  invFun q := ix1 q
  left_inv i := (eq_ix1 i).symm
  right_inv _ := rfl

/-- A sum over the index set of an [n] array is the sum over the positions. -/
theorem sum_idx1 {M : Type*} [AddCommMonoid M] {n : Nat} (f : (⟨1, ![n]⟩ : Shape).Idx → M) :
    ∑ i, f i = ∑ q : Fin n, f (ix1 q) :=
  (Equiv.sum_comp (idxEquiv1 (n := n)).symm f).symm

/-- A sum over the index set of a [1, n] array is the sum over the positions of its one row. -/
theorem sum_idx_row {M : Type*} [AddCommMonoid M] {n : Nat} (f : (⟨2, ![1, n]⟩ : Shape).Idx → M) :
    ∑ i, f i = ∑ q : Fin n, f (ix2 (0 : Fin 1) q) := by
  rw [sum_idx2, Fin.sum_univ_one]

/-- The index a reduction over axis 0 reads for column `q` and reduced coordinate `k` is `(k, q)`. -/
theorem lift_col {a b : ℕ} (h : (⟨2, ![a, b]⟩ : Shape).Reduces [0] ⟨1, ![b]⟩) (q : Fin b) (k : Fin a) :
    h.lift (ix1 q) k = ix2 k q :=
  funext fun ax => Fin.ext (by match ax with | ⟨0, _⟩ => rfl | ⟨1, _⟩ => rfl)

/-- A float sum over axis 0 of an [a, b] array, at the ideal values and onto the zero accumulator, is at column
    `q` the sum over `k` of the entries `(k, q)`. The accumulator fact is taken in the form a printed program
    carries it (the zero word equal to itself). -/
theorem sum_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  (Ideal.multiReduction_add_single src 0x00000000#32 h hφ hacc (ix1 q)).trans
    (Finset.sum_congr rfl fun k _ => congrArg src (lift_col h q k))

/-- A one-bit word zero-extended to 32 bits and read as a signed integer is the bit read as a natural number. -/
theorem bit_signed_eq_unsigned (b : BitVec 1) : (((b.setWidth 32).toInt : ℝ) : EReal) = ((b.toNat : ℝ) : EReal) := by
  rcases BitVec.eq_zero_or_eq_one b with h | h <;> subst h <;> rfl

end Cert.LibColumns

end
-- ==== Proof.LibSumBlocks.lean ====
/-
  Sums over a range cut into consecutive blocks, and a running sum that adds one term per step.

  In a commutative additive monoid (the extended reals under `+` are one) a sum over `a * b` consecutive
  indices is the sum over `a` blocks of the sums inside each block of length `b`, and a value built by
  starting from `z + f 0` and adding `f (n + 1)` at each later step is `z` plus the sum of the terms met so far.
  Nothing here needs more than associativity and commutativity of `+`, so it holds at infinite values too.
-/
import Mathlib.Algebra.BigOperators.Intervals
import Mathlib.Algebra.BigOperators.Fin

namespace Cert.SumBlocks

open Finset

variable {M : Type*} [AddCommMonoid M]

/-- GENERAL LEMMA. A sum over `a * b` consecutive indices, block by block. -/
theorem sum_range_mul (f : ℕ → M) (a b : ℕ) :
    ∑ n ∈ range (a * b), f n = ∑ q ∈ range a, ∑ l ∈ range b, f (q * b + l) := by
  induction a with
  | zero => simp
  | succ a ih =>
    rw [Nat.succ_mul, sum_range_add, ih, sum_range_succ]

/-- The running sum: `z + f 0` after step `0`, one more term at each later step. -/
def run (z : M) (f : ℕ → M) : ℕ → M
  | 0 => z + f 0
  | n + 1 => run z f n + f (n + 1)

/-- The running sum after step `n` is `z` plus the first `n + 1` terms. -/
theorem run_eq (z : M) (f : ℕ → M) (n : ℕ) : run z f n = z + ∑ q ∈ range (n + 1), f q := by
  induction n with
  | zero => simp [run]
  | succ n ih => rw [run, ih, sum_range_succ _ (n + 1), add_assoc]

/-- The running sum that starts from its first term alone (no initial value). -/
def run' (f : ℕ → M) : ℕ → M
  | 0 => f 0
  | n + 1 => run' f n + f (n + 1)

theorem run'_eq (f : ℕ → M) (n : ℕ) : run' f n = ∑ q ∈ range (n + 1), f q := by
  induction n with
  | zero => simp [run']
  | succ n ih => rw [run', ih, sum_range_succ _ (n + 1)]

/-- A sum over `Fin n` of a function of the value is the sum over the range. -/
theorem sum_fin_eq_range (f : ℕ → M) (n : ℕ) : ∑ i : Fin n, f i.val = ∑ i ∈ range n, f i :=
  Fin.sum_univ_eq_sum_range f n

end Cert.SumBlocks
-- ==== Proof.Spec.lean ====
/-
  Per-segment means of the rows of a matrix, and the two ways of summing that give them.

  Every row n of an N-row matrix carries a segment id (a 32-bit word). For the segment numbered p the SUM at
  column q adds the entries (n, q) of the rows whose id, read as a signed integer, is p, and the COUNT is the
  number of those rows; the mean is the sum divided by the larger of the count and one.

  One way to form the sum runs over all rows and multiplies each entry by a one-hot factor: 1 where the row's id
  is the word of p, 0 elsewhere. On the extended reals 1·v = v and 0·v = 0 for every v, infinite ones too, and for
  p below 2^31 the id equals the word of p exactly when it reads p as a signed integer; so the weighted sum over
  all rows is the sum over the segment's rows. The rows may also be visited tile by tile — here two halves of fifty
  tiles of ten thousand rows — each partial result started from zero: sums over consecutive ranges are regrouped
  using only associativity and commutativity of addition.
-/
import proofs.«140087_j35725537968381_1_alg».proof.Proof.LibSumBlocks
import Idealize.ShloMosaic.PureOps.Ideal
import Mathlib.Algebra.BigOperators.Fin
import Idealize.ShloMosaic.Lib.ValueIdx

noncomputable section

namespace Cert.SegMean

open Finset Idealize.ShloMosaic Idealize.ShloMosaic.ValueIdx

/-- The one-hot factor of a segment id against the number `b`: 1 where they are equal words, else 0. -/
def hot (s : BitVec 32) (b : ℕ) : EReal := if s = BitVec.ofNat 32 b then 1 else 0

/-- For a segment number below sixteen, an id is the number's word exactly when it reads that number signed. -/
theorem word_eq_iff (s : BitVec 32) (b : Fin 16) : s = BitVec.ofNat 32 b.val ↔ s.toInt = (b.val : Int) := by
  have hb : (BitVec.ofNat 32 b.val).toInt = (b.val : Int) := by fin_cases b <;> rfl
  exact ⟨fun h => h ▸ hb, fun h => BitVec.eq_of_toInt_eq (h.trans hb.symm)⟩

variable {N : ℕ}

/-- The rows of segment `p`. -/
def rowsOf (seg : Fin N → BitVec 32) (p : ℕ) : Finset (Fin N) := univ.filter fun n => (seg n).toInt = (p : Int)

/-- The one-hot weighted sum over all rows is the sum over the segment's rows. -/
theorem weighted_sum (seg : Fin N → BitVec 32) (f : Fin N → EReal) (b : Fin 16) :
    ∑ n : Fin N, hot (seg n) b.val * f n = ∑ n ∈ rowsOf seg b.val, f n := by
  unfold rowsOf
  rw [sum_filter]
  refine sum_congr rfl fun n _ => ?_
  unfold hot
  by_cases h : (seg n).toInt = (b.val : Int)
  · rw [if_pos h, if_pos ((word_eq_iff _ b).2 h), one_mul]
  · rw [if_neg h, if_neg (fun e => h ((word_eq_iff _ b).1 e)), zero_mul]

/-- The sum of the one-hot factors over all rows is the number of the segment's rows. -/
theorem weighted_count (seg : Fin N → BitVec 32) (b : Fin 16) :
    ∑ n : Fin N, hot (seg n) b.val = ∑ _n ∈ rowsOf seg b.val, (1 : EReal) := by
  have := weighted_sum seg (fun _ => (1 : EReal)) b
  simpa only [mul_one] using this

/-- Two halves of fifty tiles of ten thousand rows, each half started from zero, are the million rows in order. -/
theorem tiles_total (f : ℕ → EReal) :
    ∑ h : Fin 2, ((0 : EReal) + ∑ s ∈ range 50, ∑ r : Fin 10000, f (10000 * (50 * h.val + s) + r.val))
      = ∑ n ∈ range 1000000, f n := by
  rw [show (1000000 : ℕ) = 100 * 10000 from rfl, Cert.SumBlocks.sum_range_mul,
    show (100 : ℕ) = 2 * 50 from rfl, Cert.SumBlocks.sum_range_mul,
    Fin.sum_univ_eq_sum_range (fun h => (0 : EReal) + ∑ s ∈ range 50, ∑ r : Fin 10000, f (10000 * (50 * h + s) + r.val)) 2]
  refine sum_congr rfl fun h _ => ?_
  rw [zero_add]
  refine sum_congr rfl fun s _ => ?_
  rw [Fin.sum_univ_eq_sum_range (fun r => f (10000 * (50 * h + s) + r)) 10000]
  refine sum_congr rfl fun r _ => ?_
  congr 1
  ring

/-- A sum over the first N numbers of a function that reads row n of an N-row table is the sum over the rows. -/
theorem sum_range_rows (g : Fin N → EReal) :
    ∑ n ∈ range N, (if h : n < N then g ⟨n, h⟩ else 0) = ∑ n : Fin N, g n := by
  rw [← Fin.sum_univ_eq_sum_range (fun n => if h : n < N then g ⟨n, h⟩ else 0) N]
  exact sum_congr rfl fun n _ => by rw [dif_pos n.isLt]

/-- The ids of a million rows, by row number. -/
abbrev idOf (s : (⟨1, ![1000000]⟩ : Shape).Idx → BitVec 32) : Fin 1000000 → BitVec 32 := fun n => s (ix1 n)

/-- THE SPECIFICATION. The [16, 256] array of segment means of a [1000000, 256] matrix `x` whose rows carry the
    ids `s`: at (p, q) the sum of the entries (n, q) over the rows of segment p, divided by the larger of the
    number of those rows and the single-precision word of one. -/
def mean (x : (⟨2, ![1000000, 256]⟩ : Shape).Idx → EReal) (s : (⟨1, ![1000000]⟩ : Shape).Idx → BitVec 32) :
    (⟨2, ![16, 256]⟩ : Shape).Idx → EReal := fun j =>
  Ideal.div (∑ n ∈ rowsOf (idOf s) (j 0).val, x (ix2 n (j 1)))
    (max (∑ _n ∈ rowsOf (idOf s) (j 0).val, (1 : EReal)) (Ideal.ofBits .f32 0x3F800000#32))

end Cert.SegMean

end
-- ==== Proof.LibDotAtB.lean ====
/-
  The product of a transposed matrix with a matrix, read at an index.

  For a dot record over a [K, M] left operand and a [K, N] right operand that contracts the FIRST axis of each
  (the product Aᵀ·B, an [M, N] array), the contraction sum at the output index (i, j) runs over the K common rows:
  it is the sum over k of the left operand at (k, i) times the right operand at (k, j). The record's coordinate
  facts are hypotheses, which a literal record discharges by `rfl`; the statement serves the accelerator's matmul
  and the host's dot_general alike.
-/
import Idealize.ShloMosaic.PureOps.Ideal.Laws
import Idealize.ShloMosaic.PureOps.Dims
import Idealize.ShloMosaic.Lib.ValueIdx

noncomputable section

namespace Cert.LibDotAtB

open Idealize.ShloMosaic Idealize.ShloMosaic.ValueIdx

/-- GENERAL LEMMA. The contraction sum of an Aᵀ·B record at an output index is the sum over the common rows. -/
theorem contr_sum {K M N : ℕ} {R : Type*} [AddCommMonoid R] [Mul R]
    (d : DotDims (⟨2, ![K, M]⟩ : Shape) (⟨2, ![K, N]⟩ : Shape) (⟨2, ![M, N]⟩ : Shape))
    (hl : d.lhsContracting = [0]) (hr : d.rhsContracting = [0])
    (hl1 : ∀ j k, (d.lhsIdx j k 1).val = (j 0).val) (hr1 : ∀ j k, (d.rhsIdx j k 1).val = (j 1).val)
    (l : (⟨2, ![K, M]⟩ : Shape).Idx → R) (r : (⟨2, ![K, N]⟩ : Shape).Idx → R) (j : (⟨2, ![M, N]⟩ : Shape).Idx) :
    ∑ k : d.contr.Idx, l (d.lhsIdx j k) * r (d.rhsIdx j k) = ∑ k : Fin K, l (ix2 k (j 0)) * r (ix2 k (j 1)) := by
  have hrk : d.contr.rank = 1 := by rw [d.rank_contr, hl]; rfl
  have hs : d.contr.size ⟨0, by omega⟩ = K := by
    rw [d.size_contr 0 (by rw [hl]; exact Nat.one_pos)]
    simp [hl]
  rw [← Equiv.sum_comp (contrEquiv1 d K hrk hs).symm]
  refine Finset.sum_congr rfl fun k _ => ?_
  have el : d.lhsIdx j ((contrEquiv1 d K hrk hs).symm k) = ix2 k (j 0) := funext fun a => Fin.ext (by
    match a with
    | ⟨0, _⟩ => exact (d.lhsIdx_val_of_single hl j _).trans (contrEquiv1_symm_val d K hrk hs k)
    | ⟨1, _⟩ => exact hl1 j _)
  have er : d.rhsIdx j ((contrEquiv1 d K hrk hs).symm k) = ix2 k (j 1) := funext fun a => Fin.ext (by
    match a with
    | ⟨0, _⟩ => exact (d.rhsIdx_val_of_single hr j _).trans (contrEquiv1_symm_val d K hrk hs k)
    | ⟨1, _⟩ => exact hr1 j _)
  exact congrArg₂ (· * ·) (congrArg l el) (congrArg r er)

/-- GENERAL LEMMA. The accelerator's matmul of such a record into the zero accumulator, at the exact values. -/
theorem matmul_zero_apply {K M N : ℕ} {φ₁ φ₂ : FTy}
    (d : DotDims (⟨2, ![K, M]⟩ : Shape) (⟨2, ![K, N]⟩ : Shape) (⟨2, ![M, N]⟩ : Shape))
    (hl : d.lhsContracting = [0]) (hr : d.rhsContracting = [0])
    (hl1 : ∀ j k, (d.lhsIdx j k 1).val = (j 0).val) (hr1 : ∀ j k, (d.rhsIdx j k 1).val = (j 1).val)
    (prec : Option ContractPrecision)
    (l : FVec Ideal (⟨2, ![K, M]⟩ : Shape) φ₁) (r : FVec Ideal (⟨2, ![K, N]⟩ : Shape) φ₂) (i : Fin M) (j : Fin N) :
    matmul d prec l r (constant (⟨2, ![M, N]⟩ : Shape) .f32 0x00000000#32) (ix2 i j) = ∑ k : Fin K, l (ix2 k i) * r (ix2 k j) :=
  (Ideal.matmul_constant_zero_apply d prec l r (ix2 i j)).trans (contr_sum d hl hr hl1 hr1 l r (ix2 i j))

end Cert.LibDotAtB

end
-- ==== Proof.Payload.lean ====
/-
  The body's arithmetic read entry by entry at the exact values.

  One grid point sees a tile of 10000 rows: their segment ids as a [1, 10000, 1] block and their feature rows as a
  [1, 10000, 256] block. The body builds the 10000 x 16 one-hot matrix whose entry (r, b) is 1 where row r's
  segment id is the number b and 0 elsewhere, and adds to the running [16, 256] sums block the product of the
  transposed one-hot matrix with the tile (entry (b, d): the sum over the rows r of onehot (r, b) times the tile's
  entry (r, d)), and to the running [16, 1] counts block the column sums of the one-hot matrix.
-/
import proofs.«140087_j35725537968381_1_alg».proof.Proof.Gen.KernelIdeal.Skeleton
import proofs.«140087_j35725537968381_1_alg».proof.Proof.LibColumns
import proofs.«140087_j35725537968381_1_alg».proof.Proof.Spec
import proofs.«140087_j35725537968381_1_alg».proof.Proof.LibDotAtB
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open Cert.SegMean (hot)

/-- The one-hot matrix at row `r` and column `b`. -/
theorem onehot_apply (v3 : Vec Ideal S1x10000x1 .i32) (r : Fin 10000) (b : Fin 16) :
    k0_pay3 (F := Ideal) v3 (ix2 r b) = hot (v3 (ix3 (0 : Fin 1) r (0 : Fin 1))) b.val := by
  unfold k0_pay3
  dsimp only
  rw [sitofp_apply, extui_apply]
  show FloatOps.sitofp .f32 ((IntOp.cmpi .eq (broadcastTo S10000x16 (shapeCast S10000x1 v3 _) _ (ix2 r b)) (iota .tc S10000x16 32 [1] _ (ix2 r b))).setWidth 32) = _
  rw [iota_single_apply, broadcastTo_apply _ _ (ix2 r b) (ix2 r (0 : Fin 1)) (fun a => match a with
      | ⟨0, _⟩ => rfl
      | ⟨1, _⟩ => rfl),
    shapeCast_1ab_ab_apply]
  show ((((IntOp.cmpi .eq (v3 (ix3 (0 : Fin 1) r (0 : Fin 1))) (BitVec.ofNat 32 b.val)).setWidth 32).toInt : ℝ) : EReal) = _
  unfold Cert.SegMean.hot IntOp.cmpi
  by_cases h : v3 (ix3 (0 : Fin 1) r (0 : Fin 1)) = BitVec.ofNat 32 b.val
  · rw [if_pos h]; simp [h]
  · rw [if_neg h, show (v3 (ix3 (0 : Fin 1) r (0 : Fin 1)) == BitVec.ofNat 32 b.val) = false from beq_eq_false_iff_ne.mpr h]; simp

/-- The reset's sums block is zero everywhere. -/
theorem zero_sums_apply (j : S1x16x256.Idx) : k0_pay1 (F := Ideal) j = 0 := by
  unfold k0_pay1
  show Ideal.ofBits .f32 0x00000000#32 = 0
  exact Ideal.ofBits_zero_f32

/-- The reset's counts block is zero everywhere. -/
theorem zero_counts_apply (j : S1x16x1.Idx) : k0_pay2 (F := Ideal) j = 0 := by
  unfold k0_pay2
  show Ideal.ofBits .f32 0x00000000#32 = 0
  exact Ideal.ofBits_zero_f32

/-- The sums block after the body: the block before it plus, at (b, d), the sum over the tile's rows of the
    one-hot entry (r, b) times the tile's entry (r, d). -/
theorem sums_apply (v3 : Vec Ideal S1x10000x1 .i32) (v10 : Vec Ideal S1x10000x256 .f32) (v15 : Vec Ideal S1x16x256 .f32)
    (u : Fin 1) (b : Fin 16) (d : Fin 256) :
    k0_pay4 (F := Ideal) v3 v10 v15 (ix3 u b d)
      = v15 (ix3 (0 : Fin 1) b d) + ∑ r : Fin 10000, hot (v3 (ix3 (0 : Fin 1) r (0 : Fin 1))) b.val * v10 (ix3 (0 : Fin 1) r d) := by
  unfold k0_pay4
  rw [shapeCast_ab_1ab_apply, addf_apply, shapeCast_1ab_ab_apply]
  refine congrArg (v15 (ix3 (0 : Fin 1) b d) + ·) ?_
  refine (Cert.LibDotAtB.matmul_zero_apply dot_S10000x16_S10000x256_S16x256_0_0_1_1_n_n rfl rfl (fun _ _ => rfl) (fun _ _ => rfl)
    none (k0_pay3 v3) (shapeCast S10000x256 v10 shapeCasts_S1x10000x256_S10000x256) b d).trans ?_
  refine Finset.sum_congr rfl fun r _ => ?_
  rw [onehot_apply, shapeCast_1ab_ab_apply]

/-- The counts block after the body: the block before it plus, at (b, 0), the number of the tile's rows whose
    segment id is `b` (the column sum of the one-hot matrix). -/
theorem counts_apply (v3 : Vec Ideal S1x10000x1 .i32) (v21 : Vec Ideal S1x16x1 .f32) (u : Fin 1) (b : Fin 16) (z : Fin 1) :
    k0_pay5 (F := Ideal) v3 v21 (ix3 u b z)
      = v21 (ix3 (0 : Fin 1) b (0 : Fin 1)) + ∑ r : Fin 10000, hot (v3 (ix3 (0 : Fin 1) r (0 : Fin 1))) b.val := by
  obtain rfl : z = 0 := Subsingleton.elim _ _
  unfold k0_pay5
  rw [shapeCast_ab_1ab_apply, addf_apply, shapeCast_1ab_ab_apply]
  refine congrArg (v21 (ix3 (0 : Fin 1) b (0 : Fin 1)) + ·) ?_
  rw [shapeCast_apply _ shapeCasts_S16_S16x1 (ix2 b (0 : Fin 1)) (ix1 b) (by
    rw [Shape.rowMajor_val_one, Shape.rowMajor_val_two]
    show b.val = b.val * 1 + 0
    omega)]
  refine (Cert.LibColumns.sum_axis0_apply (k0_pay3 v3) reduces_S10000x16_S16 (.inl rfl) rfl b).trans ?_
  exact Finset.sum_congr rfl fun r _ => onehot_apply v3 r b

end Cert.KernelIdeal.Pay

end
-- ==== Proof.Blocks.lean ====
/-
  The tiles the grid points see, read off the argument arrays.

  Before the kernel the host views the [1000000, 256] matrix as two halves of 500000 rows and the id vector as a
  [2, 500000, 1] column, keeping the row-major order. Grid point t (half t / 50, tile t % 50) fetches rows
  10000·(t % 50) … of half t / 50, so row r of its tile is row 10000·t + r of the matrix, and the id it sees in
  row r is the id of that row.
-/
import proofs.«140087_j35725537968381_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.ValueIdx Cert.KernelIdeal Cert.KernelIdeal.Gen
open Idealize.ShloMosaic.Pipeline (Dat)

variable {F : FTy → Type} [FloatOps F]
variable (m : (ℓ : Loc nD τ sig) → Buf (Elt F) ℓ)

/-- The matrix as the kernel finds it: the argument viewed as two halves. -/
theorem halves_x (c : Dev nD) : (V m c main_v0 : S2x500000x256.Idx → F .f32)
    = shapeCast S2x500000x256 (m ((c : Thread nD τ).loc main_arg0)) shapeCasts_S1000000x256_S2x500000x256 := by
  show StableHlo.after hostOps0 (fun b => m (c, b)) (Proc.devRef .tc main_v0) = _
  after_results
  rfl

/-- The ids as the kernel finds them: the argument viewed as a column in two halves. -/
theorem halves_seg (c : Dev nD) : (V m c main_v1 : S2x500000x1.Idx → BitVec 32)
    = shapeCast S2x500000x1 (m ((c : Thread nD τ).loc main_arg1)) shapeCasts_S1000000_S2x500000x1 := by
  show StableHlo.after hostOps0 (fun b => m (c, b)) (Proc.devRef .tc main_v1) = _
  after_results
  rfl

/-- Where each window's block sits, decided over the hundred grid points. -/
theorem where_in : ∀ t : Fin cfg0.N,
    (win0_0.index t 0 = t.val / 50 ∧ win0_0.index t 1 = t.val % 50 ∧ win0_0.index t 2 = 0)
    ∧ (win0_1.index t 0 = t.val / 50 ∧ win0_1.index t 1 = t.val % 50 ∧ win0_1.index t 2 = 0) :=
  (by decide +kernel : ∀ t : Fin grid0.N,
    (win0_0.index t 0 = t.val / 50 ∧ win0_0.index t 1 = t.val % 50 ∧ win0_0.index t 2 = 0)
    ∧ (win0_1.index t 0 = t.val / 50 ∧ win0_1.index t 1 = t.val % 50 ∧ win0_1.index t 2 = 0))

/-- Row `r` of the tile of the matrix that point `t` sees is row 10000·t + r of the matrix. -/
theorem tile_x (c : Dev nD) (t : Fin cfg0.N) (r : Fin 10000) (d : Fin 256) (hn : 10000 * t.val + r.val < 1000000) :
    (iblk m c 0 t : Vec F S1x10000x256 .f32) (ix3 (0 : Fin 1) r d)
      = m ((c : Thread nD τ).loc main_arg0) (ix2 ⟨10000 * t.val + r.val, hn⟩ d) := by
  unfold iblk
  rw [View.read_apply]
  show V m c main_v0 _ = _
  rw [halves_x]
  refine shapeCast_apply _ _ _ _ ?_
  show (S1000000x256.rowMajor (ix2 ⟨10000 * t.val + r.val, hn⟩ d)).val = (S2x500000x256.rowMajor (((cfg0.win 0).blk t).view.emb (ix3 (0 : Fin 1) r d))).val
  rw [Shape.rowMajor_val_two, Shape.rowMajor_val_three]
  show (10000 * t.val + r.val) * 256 + d.val
    = ((win0_0.index t 0 * 1 + 1 * 0) * 500000 + (win0_0.index t 1 * 10000 + 1 * r.val)) * 256 + (win0_0.index t 2 * 256 + 1 * d.val)
  obtain ⟨⟨h0, h1, h2⟩, -⟩ := where_in t
  rw [h0, h1, h2]
  omega

/-- The id in row `r` of the tile of ids that point `t` sees is the id of row 10000·t + r. -/
theorem tile_seg (c : Dev nD) (t : Fin cfg0.N) (r : Fin 10000) (hn : 10000 * t.val + r.val < 1000000) :
    (iblk m c 1 t : Vec F S1x10000x1 .i32) (ix3 (0 : Fin 1) r (0 : Fin 1))
      = m ((c : Thread nD τ).loc main_arg1) (ix1 ⟨10000 * t.val + r.val, hn⟩) := by
  unfold iblk
  rw [View.read_apply]
  show V m c main_v1 _ = _
  rw [halves_seg]
  refine shapeCast_apply _ _ _ _ ?_
  show (S1000000.rowMajor (ix1 ⟨10000 * t.val + r.val, hn⟩)).val = (S2x500000x1.rowMajor (((cfg0.win 1).blk t).view.emb (ix3 (0 : Fin 1) r (0 : Fin 1)))).val
  rw [Shape.rowMajor_val_one, Shape.rowMajor_val_three]
  show 10000 * t.val + r.val
    = ((win0_1.index t 0 * 1 + 1 * 0) * 500000 + (win0_1.index t 1 * 10000 + 1 * r.val)) * 1 + (win0_1.index t 2 * 1 + 1 * 0)
  obtain ⟨-, h0, h1, h2⟩ := where_in t
  rw [h0, h1, h2]
  omega

end Cert.KernelIdeal.Blocks

end
-- ==== Proof.LibTileSum.lean ====
/-
  An accumulator carried over a run of consecutive grid points.

  A point-indexed quantity that starts from `z` plus the point's term at the first point of each run of `J` points and
  adds the point's term to its previous value at every other point holds, at offset `j` in a run, `z` plus the terms
  of the run's first `j + 1` points. Only associativity of `+` is used.
-/
import Mathlib.Algebra.BigOperators.Intervals

namespace Cert.TileSum

open Finset

variable {M : Type*} [AddCommMonoid M] {ι : Type*} {N : ℕ}

/-- GENERAL LEMMA. At offset `j` of the run starting at `J * q` the accumulator holds `z` plus the run's first `j + 1` terms. -/
theorem run_at (J : ℕ) (z : M) (acc : (n : ℕ) → n < N → ι → M) (term : ℕ → ι → M)
    (h_first : ∀ (n : ℕ) (h : n < N), n % J = 0 → ∀ i, acc n h i = z + term n i)
    (h_next : ∀ (n : ℕ) (h : n + 1 < N), ¬ (n + 1) % J = 0 → ∀ i, acc (n + 1) h i = acc n (Nat.lt_of_succ_lt h) i + term (n + 1) i)
    (q : ℕ) (i : ι) : ∀ (j : ℕ), j < J → ∀ (h : J * q + j < N), acc (J * q + j) h i = z + ∑ s ∈ range (j + 1), term (J * q + s) i
  | 0, _, h => by
    rw [h_first _ h (by rw [Nat.add_zero, Nat.mul_mod_right]) i, sum_range_one]
  | j + 1, hj, h => by
    have hne : ¬ (J * q + j + 1) % J = 0 := by
      rw [Nat.add_assoc, Nat.mul_add_mod, Nat.mod_eq_of_lt hj]; exact Nat.succ_ne_zero j
    have hs := h_next (J * q + j) h hne i
    refine hs.trans ?_
    rw [run_at J z acc term h_first h_next q i j (Nat.lt_of_succ_lt hj) (Nat.lt_of_succ_lt h),
      sum_range_succ _ (j + 1), add_assoc]
    rfl

/-- GENERAL LEMMA. At the last point of its run the accumulator holds `z` plus the whole run's terms. -/
theorem run_last (J : ℕ) (hJ : 0 < J) (z : M) (acc : (n : ℕ) → n < N → ι → M) (term : ℕ → ι → M)
    (h_first : ∀ (n : ℕ) (h : n < N), n % J = 0 → ∀ i, acc n h i = z + term n i)
    (h_next : ∀ (n : ℕ) (h : n + 1 < N), ¬ (n + 1) % J = 0 → ∀ i, acc (n + 1) h i = acc n (Nat.lt_of_succ_lt h) i + term (n + 1) i)
    (t : ℕ) (ht : t < N) (hlast : t % J = J - 1) (i : ι) :
    acc t ht i = z + ∑ s ∈ range J, term (J * (t / J) + s) i := by
  have same : ∀ (u : ℕ) (hu : u < N), u = t → acc u hu i = acc t ht i := fun u hu e => by subst e; rfl
  have h' : J * (t / J) + t % J < N := by rw [Nat.div_add_mod]; exact ht
  rw [← same _ h' (Nat.div_add_mod t J), run_at J z acc term h_first h_next (t / J) i (t % J) (Nat.mod_lt t hJ) h', hlast,
    Nat.sub_add_cancel hJ]

end Cert.TileSum
-- ==== Proof.Accumulate.lean ====
/-
  The running blocks over a run of fifty grid points.

  Within one half the fifty grid points share one sums block and one counts block. The first point of the run
  resets them to zero and adds its tile's contribution; every later point adds its tile's contribution to what the
  point before left. So after the last point of the run the sums block holds zero plus the fifty tiles'
  contributions, and likewise the counts block: an induction along the run, never an enumeration of it.
  The contribution of the tile at point n is, at (b, d), the sum over its ten thousand rows r of the one-hot factor
  of row 10000·n + r against b times the matrix entry (10000·n + r, d), and for the counts the sum of the factors.
-/
import proofs.«140087_j35725537968381_1_alg».proof.Proof.Cases
import proofs.«140087_j35725537968381_1_alg».proof.Proof.Payload
import proofs.«140087_j35725537968381_1_alg».proof.Proof.Blocks
import proofs.«140087_j35725537968381_1_alg».proof.Proof.LibTileSum
import proofs.«140087_j35725537968381_1_alg».proof.Proof.Spec

noncomputable section

namespace Cert.KernelIdeal.Acc

open Idealize.ShloMosaic Idealize.ShloMosaic.TcCoe Idealize.SL.Sem Idealize.ShloMosaic.ValueIdx Cert.KernelIdeal Cert.KernelIdeal.Gen
open Cert.SegMean (hot)

variable (m : (ℓ : Loc nD τ sig) → Buf (Elt Ideal) ℓ) (c : Dev nD)

/-- Entry `d` of row `n` of the matrix argument (zero past its last row). -/
def rowX (n : ℕ) (d : Fin 256) : EReal :=
  if h : n < 1000000 then m ((c : Thread nD τ).loc main_arg0) (ix2 ⟨n, h⟩ d) else 0

/-- The id of row `n` (the zero word past the last row). -/
def rowS (n : ℕ) : BitVec 32 :=
  if h : n < 1000000 then m ((c : Thread nD τ).loc main_arg1) (ix1 ⟨n, h⟩) else 0

/-- The contribution of the tile at grid point `n` to the sums block, at (b, d). -/
def tileSums (n : ℕ) (j : Fin 16 × Fin 256) : EReal :=
  ∑ r : Fin 10000, hot (rowS m c (10000 * n + r.val)) j.1.val * rowX m c (10000 * n + r.val) j.2

/-- The contribution of the tile at grid point `n` to the counts block, at b. -/
def tileCounts (n : ℕ) (b : Fin 16) : EReal :=
  ∑ r : Fin 10000, hot (rowS m c (10000 * n + r.val)) b.val

/-- The body at point `t` adds the tile's contribution to the sums block it is given. -/
theorem adds_sums (t : Fin cfg0.N) (acc : Vec Ideal S1x16x256 .f32) (b : Fin 16) (d : Fin 256) :
    k0_pay4 (F := Ideal) (iblk m c 1 t) (iblk m c 0 t) acc (ix3 (0 : Fin 1) b d)
      = acc (ix3 (0 : Fin 1) b d) + tileSums m c t.val (b, d) := by
  have hN : t.val < 100 := lt_of_lt_of_eq t.isLt N_0
  refine (Cert.KernelIdeal.Pay.sums_apply (iblk m c 1 t) (iblk m c 0 t) acc 0 b d).trans ?_
  refine congrArg (acc (ix3 (0 : Fin 1) b d) + ·) (Finset.sum_congr rfl fun r _ => ?_)
  have hn : 10000 * t.val + r.val < 1000000 := by have := r.isLt; omega
  rw [Cert.KernelIdeal.Blocks.tile_seg m c t r hn, Cert.KernelIdeal.Blocks.tile_x m c t r d hn]
  unfold rowS rowX
  rw [dif_pos hn, dif_pos hn]

/-- The body at point `t` adds the tile's contribution to the counts block it is given. -/
theorem adds_counts (t : Fin cfg0.N) (acc : Vec Ideal S1x16x1 .f32) (b : Fin 16) :
    k0_pay5 (F := Ideal) (iblk m c 1 t) acc (ix3 (0 : Fin 1) b (0 : Fin 1))
      = acc (ix3 (0 : Fin 1) b (0 : Fin 1)) + tileCounts m c t.val b := by
  have hN : t.val < 100 := lt_of_lt_of_eq t.isLt N_0
  refine (Cert.KernelIdeal.Pay.counts_apply (iblk m c 1 t) acc 0 b 0).trans ?_
  refine congrArg (acc (ix3 (0 : Fin 1) b (0 : Fin 1)) + ·) (Finset.sum_congr rfl fun r _ => ?_)
  have hn : 10000 * t.val + r.val < 1000000 := by have := r.isLt; omega
  rw [Cert.KernelIdeal.Blocks.tile_seg m c t r hn]
  unfold rowS
  rw [dif_pos hn]

/-- After the last point of a run the sums block holds zero plus the run's fifty contributions. -/
theorem sums_run (t : Fin cfg0.N) (h49 : t.val % 50 = 49) (b : Fin 16) (d : Fin 256) :
    (outsAt0 m c t.val t.isLt).1 (ix3 (0 : Fin 1) b d)
      = 0 + ∑ s ∈ Finset.range 50, tileSums m c (50 * (t.val / 50) + s) (b, d) :=
  Cert.TileSum.run_last 50 (by decide) (0 : EReal)
    (fun n hn (j : Fin 16 × Fin 256) => (outsAt0 m c n hn).1 (ix3 (0 : Fin 1) j.1 j.2)) (tileSums m c)
    (fun n h h0 j => by
      show (outsAt0 m c n h).1 (ix3 (0 : Fin 1) j.1 j.2) = 0 + tileSums m c n j
      rw [outsAt0_A m c ⟨n, h⟩ h0]
      dsimp only
      rw [Cert.KernelIdeal.Cases.sums_first]
      refine (adds_sums m c ⟨n, h⟩ (k0_pay1 (F := Ideal)) j.1 j.2).trans ?_
      rw [Cert.KernelIdeal.Pay.zero_sums_apply])
    (fun n h hne j => by
      show (outsAt0 m c (n + 1) h).1 (ix3 (0 : Fin 1) j.1 j.2) = (outsAt0 m c n _).1 (ix3 (0 : Fin 1) j.1 j.2) + tileSums m c (n + 1) j
      rw [outsAt0_B m c ⟨n + 1, h⟩ hne]
      dsimp only
      rw [Cert.KernelIdeal.Cases.sums_later]
      exact adds_sums m c ⟨n + 1, h⟩ _ j.1 j.2)
    t.val t.isLt h49 (b, d)

/-- After the last point of a run the counts block holds zero plus the run's fifty contributions. -/
theorem counts_run (t : Fin cfg0.N) (h49 : t.val % 50 = 49) (b : Fin 16) :
    (outsAt0 m c t.val t.isLt).2 (ix3 (0 : Fin 1) b (0 : Fin 1))
      = 0 + ∑ s ∈ Finset.range 50, tileCounts m c (50 * (t.val / 50) + s) b :=
  Cert.TileSum.run_last 50 (by decide) (0 : EReal)
    (fun n hn (b : Fin 16) => (outsAt0 m c n hn).2 (ix3 (0 : Fin 1) b (0 : Fin 1))) (tileCounts m c)
    (fun n h h0 b => by
      show (outsAt0 m c n h).2 (ix3 (0 : Fin 1) b (0 : Fin 1)) = 0 + tileCounts m c n b
      rw [outsAt0_A m c ⟨n, h⟩ h0]
      dsimp only
      rw [Cert.KernelIdeal.Cases.counts_first]
      refine (adds_counts m c ⟨n, h⟩ (k0_pay2 (F := Ideal)) b).trans ?_
      rw [Cert.KernelIdeal.Pay.zero_counts_apply])
    (fun n h hne b => by
      show (outsAt0 m c (n + 1) h).2 (ix3 (0 : Fin 1) b (0 : Fin 1)) = (outsAt0 m c n _).2 (ix3 (0 : Fin 1) b (0 : Fin 1)) + tileCounts m c (n + 1) b
      rw [outsAt0_B m c ⟨n + 1, h⟩ hne]
      dsimp only
      rw [Cert.KernelIdeal.Cases.counts_later]
      exact adds_counts m c ⟨n + 1, h⟩ _ b)
    t.val t.isLt h49 b

end Cert.KernelIdeal.Acc

end
-- ==== Proof.Final.lean ====
/-
  The two arrays the kernel leaves.

  The sums array is [2, 16, 256] and the counts array [2, 16, 1]: block h of each is written back once, after the
  last of the fifty grid points of half h, and holds what the running block holds then — zero plus the fifty
  contributions of that half's tiles. The two blocks of each array tile it, so each array as a whole is that
  function of its index.
-/
import proofs.«140087_j35725537968381_1_alg».proof.Proof.Accumulate
import Idealize.ShloMosaic.Lib.Pipeline.Value

noncomputable section

namespace Cert.KernelIdeal.Final

open Idealize.ShloMosaic Idealize.ShloMosaic.TcCoe Idealize.SL.Sem Idealize.ShloMosaic.ValueIdx Cert.KernelIdeal Cert.KernelIdeal.Gen
open Idealize.ShloMosaic.Pipeline (Dat)
open Cert.KernelIdeal.Acc

variable (m : (ℓ : Loc nD τ sig) → Buf (Elt Ideal) ℓ) (c : Dev nD)

/-- Half `h`'s sums at (b, d): zero plus the fifty tile contributions of the half. -/
def sumsAt (h : ℕ) (b : Fin 16) (d : Fin 256) : EReal := 0 + ∑ s ∈ Finset.range 50, tileSums m c (50 * h + s) (b, d)

/-- Half `h`'s counts at b. -/
def countsAt (h : ℕ) (b : Fin 16) : EReal := 0 + ∑ s ∈ Finset.range 50, tileCounts m c (50 * h + s) b

/-- The sums array after the kernel. -/
def halfSums : Buf (Elt Ideal) ((c : Thread nD τ).loc main_v2_0) :=
  fun (i : S2x16x256.Idx) => sumsAt m c (i 0).val (i 1) (i 2)

/-- The counts array after the kernel. -/
def halfCounts : Buf (Elt Ideal) ((c : Thread nD τ).loc main_v2_1) :=
  fun (i : S2x16x1.Idx) => countsAt m c (i 0).val (i 1)

/-- Where the output blocks sit, decided over the hundred grid points: block t / 50 along the first axis. -/
theorem where_out : ∀ t : Fin cfg0.N,
    (win0_2.index t 0 = t.val / 50 ∧ win0_2.index t 1 = 0 ∧ win0_2.index t 2 = 0)
    ∧ (win0_3.index t 0 = t.val / 50 ∧ win0_3.index t 1 = 0 ∧ win0_3.index t 2 = 0) :=
  (by decide +kernel : ∀ t : Fin grid0.N,
    (win0_2.index t 0 = t.val / 50 ∧ win0_2.index t 1 = 0 ∧ win0_2.index t 2 = 0)
    ∧ (win0_3.index t 0 = t.val / 50 ∧ win0_3.index t 1 = 0 ∧ win0_3.index t 2 = 0))

/-- At the last point of a run the running sums block is the half's sums, entry by entry. -/
theorem sums_block (t : Fin cfg0.N) (h49 : t.val % 50 = 49) (y : S1x16x256.Idx) :
    (outsAt0 m c t.val t.isLt).1 y = sumsAt m c (t.val / 50) (y 1) (y 2) := by
  have e : y = (ix3 (0 : Fin 1) (y 1 : Fin 16) (y 2 : Fin 256) : S1x16x256.Idx) := funext fun a => by
    match a with
    | ⟨0, _⟩ => exact Fin.ext (by have h : (y 0).val < 1 := (y 0).isLt; show (y 0).val = 0; omega)
    | ⟨1, _⟩ => rfl
    | ⟨2, _⟩ => rfl
  exact (congrArg (outsAt0 m c t.val t.isLt).1 e).trans (sums_run m c t h49 (y 1) (y 2))

/-- At the last point of a run the running counts block is the half's counts, entry by entry. -/
theorem counts_block (t : Fin cfg0.N) (h49 : t.val % 50 = 49) (y : S1x16x1.Idx) :
    (outsAt0 m c t.val t.isLt).2 y = countsAt m c (t.val / 50) (y 1) := by
  have e : y = (ix3 (0 : Fin 1) (y 1 : Fin 16) (0 : Fin 1) : S1x16x1.Idx) := funext fun a => by
    match a with
    | ⟨0, _⟩ => exact Fin.ext (by have h : (y 0).val < 1 := (y 0).isLt; show (y 0).val = 0; omega)
    | ⟨1, _⟩ => rfl
    | ⟨2, _⟩ => exact Fin.ext (by have h : (y 2).val < 1 := (y 2).isLt; show (y 2).val = 0; omega)
  exact (congrArg (outsAt0 m c t.val t.isLt).2 e).trans (counts_run m c t h49 (y 1))

/-- What a writing-back point writes of the sums is its block of `halfSums`. -/
theorem flushed_sums (t : Fin cfg0.N) (hf : (cfg0.win 2).flush t = true) :
    (dats m 0 c).flushed 2 t = ((cfg0.win 2).blk t).view.read (Elt Ideal) (halfSums m c) := by
  have h49 := (flush0_2 t).mp hf
  show (cfg0.win 2).cut (grid0.coords t) ((dats m 0 c).after 2 t) = _
  rw [after0_2]
  funext y
  rw [View.read_apply]
  show (outsAt0 m c t.val t.isLt).1 y = halfSums m c (((cfg0.win 2).blk t).view.emb y)
  refine (sums_block m c t h49 y).trans ?_
  obtain ⟨⟨h0, h1, h2⟩, -⟩ := where_out t
  have hy0 : (y 0).val < 1 := (y 0).isLt
  have e0 : ((((cfg0.win 2).blk t).view.emb y) 0).val = t.val / 50 := by
    show win0_2.index t 0 * 1 + 1 * (y 0).val = _
    rw [h0]; omega
  have e1 : (((cfg0.win 2).blk t).view.emb y) 1 = y 1 := Fin.ext (by
    show win0_2.index t 1 * 16 + 1 * (y 1).val = (y 1).val
    rw [h1]; omega)
  have e2 : (((cfg0.win 2).blk t).view.emb y) 2 = y 2 := Fin.ext (by
    show win0_2.index t 2 * 256 + 1 * (y 2).val = (y 2).val
    rw [h2]; omega)
  unfold halfSums
  rw [e0, e1, e2]

/-- What a writing-back point writes of the counts is its block of `halfCounts`. -/
theorem flushed_counts (t : Fin cfg0.N) (hf : (cfg0.win 3).flush t = true) :
    (dats m 0 c).flushed 3 t = ((cfg0.win 3).blk t).view.read (Elt Ideal) (halfCounts m c) := by
  have h49 := (flush0_3 t).mp hf
  show (cfg0.win 3).cut (grid0.coords t) ((dats m 0 c).after 3 t) = _
  rw [after0_3]
  funext y
  rw [View.read_apply]
  show (outsAt0 m c t.val t.isLt).2 y = halfCounts m c (((cfg0.win 3).blk t).view.emb y)
  refine (counts_block m c t h49 y).trans ?_
  obtain ⟨-, h0, h1, h2⟩ := where_out t
  have hy0 : (y 0).val < 1 := (y 0).isLt
  have e0 : ((((cfg0.win 3).blk t).view.emb y) 0).val = t.val / 50 := by
    show win0_3.index t 0 * 1 + 1 * (y 0).val = _
    rw [h0]; omega
  have e1 : (((cfg0.win 3).blk t).view.emb y) 1 = y 1 := Fin.ext (by
    show win0_3.index t 1 * 16 + 1 * (y 1).val = (y 1).val
    rw [h1]; omega)
  unfold halfCounts
  rw [e0, e1]

/-- An index of the sums array is in point `t`'s block exactly when each coordinate is in the block's range. -/
theorem mem_sums_block (t : Fin cfg0.N) (i : S2x16x256.Idx) :
    i ∈ ((cfg0.win 2).blk t).view.set ↔ ∀ a : Fin 3, win0_2.index t a * S1x16x256.size a ≤ (i a).val ∧ (i a).val < win0_2.index t a * S1x16x256.size a + S1x16x256.size a := by
  show i ∈ ((View.whole main_v2_0).slice (win0_2.rect t)).set ↔ _
  rw [View.set_slice_whole, Rect.mem_set_unit]
  exact Iff.rfl

/-- The same for the counts array. -/
theorem mem_counts_block (t : Fin cfg0.N) (i : S2x16x1.Idx) :
    i ∈ ((cfg0.win 3).blk t).view.set ↔ ∀ a : Fin 3, win0_3.index t a * S1x16x1.size a ≤ (i a).val ∧ (i a).val < win0_3.index t a * S1x16x1.size a + S1x16x1.size a := by
  show i ∈ ((View.whole main_v2_1).slice (win0_3.rect t)).set ↔ _
  rw [View.set_slice_whole, Rect.mem_set_unit]
  exact Iff.rfl

/-- The last point of half `h`. -/
def lastOf (h : Fin 2) : Fin cfg0.N := ⟨50 * h.val + 49, by rw [show cfg0.N = 100 from N_0]; omega⟩

/-- THE SUMS ARRAY after the kernel is `halfSums`: the last point of half `i 0` covers index `i`. -/
theorem final_sums : (dats m 0 c).arrAt 2 cfg0.N = halfSums m c :=
  (dats m 0 c).arrAt_eq_of_cover 2 (halfSums m c) (flushed_sums m c) fun i => by
    have hi0 : (i 0).val < 2 := (i 0).isLt
    have hi1 : (i 1).val < 16 := (i 1).isLt
    have hi2 : (i 2).val < 256 := (i 2).isLt
    refine ⟨lastOf ⟨(i 0).val, hi0⟩, (flush0_2 _).mpr (by show (50 * (i 0).val + 49) % 50 = 49; omega), ?_⟩
    rw [mem_sums_block]
    obtain ⟨⟨h0, h1, h2⟩, -⟩ := where_out (lastOf ⟨(i 0).val, hi0⟩)
    have hq : (lastOf ⟨(i 0).val, hi0⟩).val / 50 = (i 0).val := by show (50 * (i 0).val + 49) / 50 = _; omega
    intro a
    match a with
    | ⟨0, _⟩ =>
      show win0_2.index (lastOf ⟨(i 0).val, hi0⟩) 0 * 1 ≤ (i 0).val ∧ (i 0).val < win0_2.index (lastOf ⟨(i 0).val, hi0⟩) 0 * 1 + 1
      rw [h0, hq]; omega
    | ⟨1, _⟩ =>
      show win0_2.index (lastOf ⟨(i 0).val, hi0⟩) 1 * 16 ≤ (i 1).val ∧ (i 1).val < win0_2.index (lastOf ⟨(i 0).val, hi0⟩) 1 * 16 + 16
      rw [h1]; omega
    | ⟨2, _⟩ =>
      show win0_2.index (lastOf ⟨(i 0).val, hi0⟩) 2 * 256 ≤ (i 2).val ∧ (i 2).val < win0_2.index (lastOf ⟨(i 0).val, hi0⟩) 2 * 256 + 256
      rw [h2]; omega

/-- THE COUNTS ARRAY after the kernel is `halfCounts`. -/
theorem final_counts : (dats m 0 c).arrAt 3 cfg0.N = halfCounts m c :=
  (dats m 0 c).arrAt_eq_of_cover 3 (halfCounts m c) (flushed_counts m c) fun i => by
    have hi0 : (i 0).val < 2 := (i 0).isLt
    have hi1 : (i 1).val < 16 := (i 1).isLt
    have hi2 : (i 2).val < 1 := (i 2).isLt
    refine ⟨lastOf ⟨(i 0).val, hi0⟩, (flush0_3 _).mpr (by show (50 * (i 0).val + 49) % 50 = 49; omega), ?_⟩
    rw [mem_counts_block]
    obtain ⟨-, h0, h1, h2⟩ := where_out (lastOf ⟨(i 0).val, hi0⟩)
    have hq : (lastOf ⟨(i 0).val, hi0⟩).val / 50 = (i 0).val := by show (50 * (i 0).val + 49) / 50 = _; omega
    intro a
    match a with
    | ⟨0, _⟩ =>
      show win0_3.index (lastOf ⟨(i 0).val, hi0⟩) 0 * 1 ≤ (i 0).val ∧ (i 0).val < win0_3.index (lastOf ⟨(i 0).val, hi0⟩) 0 * 1 + 1
      rw [h0, hq]; omega
    | ⟨1, _⟩ =>
      show win0_3.index (lastOf ⟨(i 0).val, hi0⟩) 1 * 16 ≤ (i 1).val ∧ (i 1).val < win0_3.index (lastOf ⟨(i 0).val, hi0⟩) 1 * 16 + 16
      rw [h1]; omega
    | ⟨2, _⟩ =>
      show win0_3.index (lastOf ⟨(i 0).val, hi0⟩) 2 * 1 ≤ (i 2).val ∧ (i 2).val < win0_3.index (lastOf ⟨(i 0).val, hi0⟩) 2 * 1 + 1
      rw [h2]; omega

end Cert.KernelIdeal.Final

end
-- ==== Proof.Tail.lean ====
/-
  The host's lines after the kernel, and the kernel program's result.

  The host adds the two halves of the sums array and of the counts array (each sum started from zero), takes the
  larger of each count and one, spreads it along the columns and divides. At (p, q) that is the quotient of
  zero plus the two halves' sums at (p, q) by the larger of zero plus the two halves' counts at p and one.
-/
import proofs.«140087_j35725537968381_1_alg».proof.Proof.Final
import Idealize.ShloMosaic.Lib.StableHlo.Run
import Idealize.ShloMosaic.Lib.Pipeline.Value
import Idealize.ShloMosaic.PureOps.Ideal.Laws

noncomputable section

namespace Cert.KernelIdeal.Tail

open Idealize.ShloMosaic Idealize.ShloMosaic.TcCoe Idealize.SL.Sem Idealize.ShloMosaic.ValueIdx Cert.KernelIdeal Cert.KernelIdeal.Gen
open Idealize.ShloMosaic.Pipeline (Dat)
open Cert.KernelIdeal.Final

variable (m : (ℓ : Loc nD τ sig) → Buf (Elt Ideal) ℓ) (c : Dev nD)

/-- The host's lines after the kernel as one function of the two arrays the kernel leaves. -/
def tail (A2 : FVec Ideal S2x16x256 .f32) (A3 : FVec Ideal S2x16x1 .f32) : FVec Ideal S16x256 .f32 :=
  Host.divf (Host.reduceAdd A2 (constant (F := Ideal) S_ .f32 0x00000000#32) reducesTo_S2x16x256_S16x256_d0 h_S_)
    (broadcastInDim S16x256 ![0, 1] bcast_S16x1_S16x256_0_1
      (maximumf (Host.reduceAdd A3 (constant (F := Ideal) S_ .f32 0x00000000#32) reducesTo_S2x16x1_S16x1_d0 h_S_)
        (broadcastInDim S16x1 ![] bcast_S_S16x1 (constant (F := Ideal) S_ .f32 0x3F800000#32))))

/-- What the frame run leaves in the result buffer: the host's lines applied to the two arrays the kernel leaves. -/
theorem result_eq : Pipeline.afterTail₀ cfgs (dats m) 0 (V0 m) [hostOps1] c main_v8 = tail (halfSums m c) (halfCounts m c) := by
  unfold Pipeline.afterTail₀
  show StableHlo.after hostOps1 _ (Proc.devRef .tc main_v8) = _
  after_results
  have a2 : Pipeline.withArrays (cfgs 0).spec c (V0 m c) (fun w => (dats m 0 c).arrAt w (cfgs 0).N) (Proc.devRef .tc main_v2_0)
      = halfSums m c :=
    (Pipeline.withArrays_arr spec0 launch0.win.arr_inj c _ _ 2).trans (final_sums m c)
  have a3 : Pipeline.withArrays (cfgs 0).spec c (V0 m c) (fun w => (dats m 0 c).arrAt w (cfgs 0).N) (Proc.devRef .tc main_v2_1)
      = halfCounts m c :=
    (Pipeline.withArrays_arr spec0 launch0.win.arr_inj c _ _ 3).trans (final_counts m c)
  rw [a2, a3]
  rfl

end Cert.KernelIdeal.Tail

end
-- ==== Proof.LibLeadSum.lean ====
/-
  The host's sum over the leading axis of a rank-3 array, read at an index.

  Summing an [a, b, c] array over its first axis from an initial value gives a [b, c] array whose entry (p, q) is
  the initial value plus the sum over k of the entries (k, p, q) — at the exact values, where the host's sum is
  the plain sum whatever its order.
-/
import Idealize.ShloMosaic.PureOps.Ideal.Laws
import Idealize.ShloMosaic.Lib.ValueIdx

noncomputable section

namespace Cert.LibLeadSum

open Idealize.ShloMosaic Idealize.ShloMosaic.ValueIdx

/-- GENERAL LEMMA. A host float sum over axis 0 of an [a, b, c] array, at (p, q). The second shape fact names the
    index the sum reads; at literal shapes `by decide` gives it. -/
theorem host_sum_lead_apply {a b c : ℕ} (x : FVec Ideal (⟨3, ![a, b, c]⟩ : Shape) .f32) (init : FVec Ideal (⟨0, ![]⟩ : Shape) .f32)
    (h' : (⟨3, ![a, b, c]⟩ : Shape).ReducesTo [0] ⟨2, ![b, c]⟩) (h : (⟨3, ![a, b, c]⟩ : Shape).Reduces [0] ⟨2, ![b, c]⟩)
    (hu : 0 < (⟨0, ![]⟩ : Shape).numel) (p : Fin b) (q : Fin c) :
    Host.reduceAdd x init h' hu (ix2 p q) = init ix0 + ∑ k : Fin a, x (ix3 k p q) := by
  show Ideal.hostReduceAdd h' x (init (Shape.Idx.first hu)) (ix2 p q) = _
  rw [Ideal.hostReduceAdd_single h' h]
  refine congrArg₂ (· + ·) (congrArg init (eq_ix0 _)) (Finset.sum_congr rfl fun k _ => congrArg x (funext fun ax => Fin.ext ?_))
  match ax with
  | ⟨0, _⟩ => rfl
  | ⟨1, _⟩ => rfl
  | ⟨2, _⟩ => rfl

end Cert.LibLeadSum

end
-- ==== Proof.KernelValue.lean ====
/-
  The kernel program computes the segment means.

  Its result at (p, q) is the quotient of zero plus the two halves' sums by the larger of zero plus the two halves'
  counts and one. Each half's sum is zero plus fifty tile contributions, each a one-hot weighted sum over the tile's
  ten thousand rows: together the million rows of the matrix in order, each weighted by the one-hot factor of its
  id against p — the sum over the rows of segment p. The counts likewise. Only regrouping of sums and 1·v = v,
  0·v = 0 are used, so nothing here asks the entries to be finite.
-/
import proofs.«140087_j35725537968381_1_alg».proof.Proof.Tail
import proofs.«140087_j35725537968381_1_alg».proof.Proof.LibLeadSum
import proofs.«140087_j35725537968381_1_alg».proof.Proof.Spec
import Idealize.ShloMosaic.Lib.Pipeline.Value

noncomputable section

namespace Cert.KernelIdeal.KernelValue

open Idealize.ShloMosaic Idealize.ShloMosaic.TcCoe Idealize.SL.Sem Idealize.ShloMosaic.ValueIdx Cert.KernelIdeal Cert.KernelIdeal.Gen
open Cert.KernelIdeal.Final Cert.KernelIdeal.Tail Cert.KernelIdeal.Acc Cert.SegMean

/-- The host's lines after the kernel at (p, q). -/
theorem tail_apply (A2 : FVec Ideal S2x16x256 .f32) (A3 : FVec Ideal S2x16x1 .f32) (p : Fin 16) (q : Fin 256) :
    tail A2 A3 (ix2 p q)
      = Ideal.div (0 + ∑ h : Fin 2, A2 (ix3 h p q))
          (max (0 + ∑ h : Fin 2, A3 (ix3 h p (0 : Fin 1))) (Ideal.ofBits .f32 0x3F800000#32)) := by
  unfold tail
  show Ideal.div _ _ = Ideal.div _ _
  refine congrArg₂ Ideal.div ?_ ?_
  · refine (Cert.LibLeadSum.host_sum_lead_apply A2 _ reducesTo_S2x16x256_S16x256_d0 (by decide) h_S_ p q).trans ?_
    show Ideal.ofBits .f32 0x00000000#32 + _ = _
    rw [Ideal.ofBits_zero_f32]
  · refine (broadcastInDim_apply _ bcast_S16x1_S16x256_0_1 _ (ix2 p q) (ix2 p (0 : Fin 1)) (fun a => match a with
      | ⟨0, _⟩ => by show p.val = if (16 : Nat) = 1 then 0 else p.val; rw [if_neg (by decide)]
      | ⟨1, _⟩ => by show 0 = if (1 : Nat) = 1 then 0 else q.val; rw [if_pos rfl])).trans ?_
    rw [maximumf_apply]
    refine congrArg₂ max ?_ ?_
    · refine (Cert.LibLeadSum.host_sum_lead_apply A3 _ reducesTo_S2x16x1_S16x1_d0 (by decide) h_S_ p (0 : Fin 1)).trans ?_
      show Ideal.ofBits .f32 0x00000000#32 + _ = _
      rw [Ideal.ofBits_zero_f32]
    · exact broadcastInDim_apply _ bcast_S_S16x1 _ (ix2 p (0 : Fin 1)) ix0 (fun a => a.elim0)

variable (m : (ℓ : Loc nD τ sig) → Buf (Elt Ideal) ℓ) (c : Dev nD)

/-- The matrix argument as an array of extended reals. -/
abbrev argX : (⟨2, ![1000000, 256]⟩ : Shape).Idx → EReal := m ((c : Thread nD τ).loc main_arg0)

/-- The id argument. -/
abbrev argS : (⟨1, ![1000000]⟩ : Shape).Idx → BitVec 32 := m ((c : Thread nD τ).loc main_arg1)

/-- The two halves' sums at (p, q) are the sum over the rows of segment p of their entries in column q. -/
theorem total_sums (p : Fin 16) (q : Fin 256) :
    ∑ h : Fin 2, sumsAt m c h.val p q = ∑ n ∈ rowsOf (idOf (argS m c)) p.val, argX m c (ix2 n q) := by
  unfold sumsAt tileSums
  dsimp only
  refine (tiles_total (fun n => hot (rowS m c n) p.val * rowX m c n q)).trans ?_
  refine (Finset.sum_congr rfl fun n hn => ?_).trans
    ((sum_range_rows (fun n : Fin 1000000 => hot (idOf (argS m c) n) p.val * argX m c (ix2 n q))).trans
      (weighted_sum (idOf (argS m c)) (fun n => argX m c (ix2 n q)) p))
  have h := Finset.mem_range.mp hn
  unfold rowS rowX
  rw [dif_pos h, dif_pos h, dif_pos h]

/-- The two halves' counts at p are the number of rows of segment p. -/
theorem total_counts (p : Fin 16) :
    ∑ h : Fin 2, countsAt m c h.val p = ∑ _n ∈ rowsOf (idOf (argS m c)) p.val, (1 : EReal) := by
  unfold countsAt tileCounts
  refine (tiles_total (fun n => hot (rowS m c n) p.val)).trans ?_
  refine (Finset.sum_congr rfl fun n hn => ?_).trans
    ((sum_range_rows (fun n : Fin 1000000 => hot (idOf (argS m c) n) p.val)).trans
      (weighted_count (idOf (argS m c)) p))
  have h := Finset.mem_range.mp hn
  unfold rowS
  rw [dif_pos h, dif_pos h]

/-- The kernel program's result is the array of segment means of its arguments. -/
theorem kernel_is_mean : tail (halfSums m c) (halfCounts m c) = mean (argX m c) (argS m c) := by
  funext j
  obtain ⟨p, q, rfl⟩ : ∃ (p : Fin 16) (q : Fin 256), j = ix2 p q := ⟨j 0, j 1, eq_ix2 j⟩
  rw [tail_apply]
  have hs : ∀ h : Fin 2, halfSums m c (ix3 h p q) = sumsAt m c h.val p q := fun _ => rfl
  have hc : ∀ h : Fin 2, halfCounts m c (ix3 h p (0 : Fin 1)) = countsAt m c h.val p := fun _ => rfl
  simp only [hs, hc, zero_add]
  rw [total_sums, total_counts]
  rfl

end Cert.KernelIdeal.KernelValue

end
-- ==== Proof.LibEdges.lean ====
/-
  Rows gathered along edges and summed into their targets, read at an index.

  An edge list gives every edge `e` a source and a target node. The gather takes, for edge `e`, the row of an
  `[n, w]` array at the edge's source index (read signed and clamped into the array). The scatter-add puts every
  update row `e` onto the row of the operand at the edge's target index (read signed; an edge whose target is
  outside the array is dropped): entry `(p, q)` of the result is the operand's entry plus the sum, over the edges
  `e` whose target is `p`, of the updates' entry `(e, q)`. The rank-1 form adds one number per edge.
  The coordinate facts of the dimension records are hypotheses, so that one statement serves every record of these
  plain forms.
-/
import Idealize.ShloMosaic.PureOps.Ideal
import Idealize.ShloMosaic.PureOps.Dims
import Idealize.ShloMosaic.Lib.ValueIdx

noncomputable section

namespace Cert.LibEdges

open Idealize.ShloMosaic Idealize.ShloMosaic.ValueIdx

/-- The edges whose target index, read signed off column 0 of the `[m, 1]` index array, is node `p`. -/
def into {n m bw : ℕ} (idx : IVec (⟨2, ![m, 1]⟩ : Shape) bw) (p : Fin n) : Finset (Fin m) :=
  Finset.univ.filter fun e => (idx (ix2 e (0 : Fin 1))).toInt = (p.val : Int)

/-- The source row of edge `e`: its index read signed and clamped into `[0, n - 1]`. -/
def src {n m bw : ℕ} (hn : 0 < n) (idx : IVec (⟨2, ![m, 1]⟩ : Shape) bw) (e : Fin m) : Fin n :=
  ⟨min (idx (ix2 e (0 : Fin 1))).toInt.toNat (n - 1), by omega⟩

/-- GENERAL LEMMA. A gather of whole rows of an `[n, w]` array, one per start index of an `[m, 1]` index array, reads
    at `(e, b)` the array at `(src e, b)`. -/
theorem gather_rows {α : Type} {n m w bw : ℕ} (hn : 0 < n)
    (d : GatherDims (⟨2, ![n, w]⟩ : Shape) (⟨2, ![m, 1]⟩ : Shape) (⟨2, ![m, w]⟩ : Shape))
    (h0 : ∀ (e : Fin m) (b : Fin w) (idx : IVec (⟨2, ![m, 1]⟩ : Shape) bw),
      (d.operandIdx (ix2 e b) idx 0).val = min (idx (ix2 e (0 : Fin 1))).toInt.toNat (n - 1))
    (h1 : ∀ (e : Fin m) (b : Fin w) (idx : IVec (⟨2, ![m, 1]⟩ : Shape) bw), (d.operandIdx (ix2 e b) idx 1).val = b.val)
    (x : (⟨2, ![n, w]⟩ : Shape).Idx → α) (idx : IVec (⟨2, ![m, 1]⟩ : Shape) bw) (e : Fin m) (b : Fin w) :
    Host.gather d x idx (ix2 e b) = x (ix2 (src hn idx e) b) := by
  unfold Host.gather
  refine congrArg x (funext fun a => Fin.ext ?_)
  match a with
  | ⟨0, _⟩ => exact h0 e b idx
  | ⟨1, _⟩ => exact h1 e b idx

/-- GENERAL LEMMA. A scatter-add of `[m, w]` update rows into an `[n, w]` operand at the rows an `[m, 1]` index array
    names reads, at `(p, q)`, the operand plus the sum over the edges into `p` of the updates at `(e, q)`. -/
theorem scatterAdd_rows {n m w bw : ℕ}
    (d : ScatterDims (⟨2, ![n, w]⟩ : Shape) (⟨2, ![m, 1]⟩ : Shape) (⟨2, ![m, w]⟩ : Shape))
    (hs0 : ∀ (e : Fin m) (b : Fin w) (idx : IVec (⟨2, ![m, 1]⟩ : Shape) bw),
      d.start (ix2 e b) idx 0 = (idx (ix2 e (0 : Fin 1))).toInt)
    (hs1 : ∀ (e : Fin m) (b : Fin w) (idx : IVec (⟨2, ![m, 1]⟩ : Shape) bw), d.start (ix2 e b) idx 1 = 0)
    (hw0 : ∀ (e : Fin m) (b : Fin w), d.window (ix2 e b) 0 = 0)
    (hw1 : ∀ (e : Fin m) (b : Fin w), d.window (ix2 e b) 1 = b.val)
    (x : (⟨2, ![n, w]⟩ : Shape).Idx → EReal) (idx : IVec (⟨2, ![m, 1]⟩ : Shape) bw)
    (upd : (⟨2, ![m, w]⟩ : Shape).Idx → EReal) (p : Fin n) (q : Fin w) :
    Ideal.hostScatterAdd d x idx upd (ix2 p q) = x (ix2 p q) + ∑ e ∈ into idx p, upd (ix2 e q) := by
  have key : ∀ (e : Fin m) (b : Fin w), d.resultIdx? (ix2 e b) idx = some (ix2 p q)
      ↔ ((idx (ix2 e (0 : Fin 1))).toInt = (p.val : Int) ∧ b = q) := by
    intro e b
    unfold ScatterDims.resultIdx?
    constructor
    · intro h
      split at h
      · rename_i hb
        have hf := Option.some.inj h
        have h0 : (d.start (ix2 e b) idx 0 + (d.window (ix2 e b) 0 : Int)).toNat = p.val := congrArg (fun f => (f 0).val) hf
        have h1 : (d.start (ix2 e b) idx 1 + (d.window (ix2 e b) 1 : Int)).toNat = q.val := congrArg (fun f => (f 1).val) hf
        have hb0 := (hb 0).1
        rw [hs0, hw0] at h0 hb0
        rw [hs1, hw1] at h1
        exact ⟨by omega, Fin.ext (by omega)⟩
      · exact absurd h (by simp)
    · rintro ⟨h0, h1⟩
      have hb : ∀ a, 0 ≤ d.start (ix2 e b) idx a + (d.window (ix2 e b) a : Int)
          ∧ d.start (ix2 e b) idx a + (d.window (ix2 e b) a : Int) < ((⟨2, ![n, w]⟩ : Shape).size a : Int) := by
        intro a
        match a with
        | ⟨0, _⟩ =>
          show 0 ≤ d.start (ix2 e b) idx 0 + (d.window (ix2 e b) 0 : Int)
            ∧ d.start (ix2 e b) idx 0 + (d.window (ix2 e b) 0 : Int) < (n : Int)
          rw [hs0, hw0, h0]; have := p.isLt; omega
        | ⟨1, _⟩ =>
          show 0 ≤ d.start (ix2 e b) idx 1 + (d.window (ix2 e b) 1 : Int)
            ∧ d.start (ix2 e b) idx 1 + (d.window (ix2 e b) 1 : Int) < (w : Int)
          rw [hs1, hw1]; have := b.isLt; omega
      rw [dif_pos hb]
      refine congrArg some (funext fun a => Fin.ext ?_)
      match a with
      | ⟨0, _⟩ =>
        show (d.start (ix2 e b) idx 0 + (d.window (ix2 e b) 0 : Int)).toNat = p.val
        rw [hs0, hw0, h0]; omega
      | ⟨1, _⟩ =>
        show (d.start (ix2 e b) idx 1 + (d.window (ix2 e b) 1 : Int)).toNat = q.val
        rw [hs1, hw1, h1]; omega
  unfold Ideal.hostScatterAdd
  refine congrArg (x (ix2 p q) + ·) ?_
  unfold into
  rw [Finset.sum_filter, sum_idx2, Finset.sum_filter]
  refine Finset.sum_congr rfl fun e _ => ?_
  by_cases hp : (idx (ix2 e (0 : Fin 1))).toInt = (p.val : Int)
  · simp [key, hp]
  · simp [key, hp]

/-- GENERAL LEMMA. The rank-1 scatter-add: one number per edge added onto the operand's entry at the edge's target. -/
theorem scatterAdd_vec {n m bw : ℕ}
    (d : ScatterDims (⟨1, ![n]⟩ : Shape) (⟨2, ![m, 1]⟩ : Shape) (⟨1, ![m]⟩ : Shape))
    (hs0 : ∀ (e : Fin m) (idx : IVec (⟨2, ![m, 1]⟩ : Shape) bw), d.start (ix1 e) idx 0 = (idx (ix2 e (0 : Fin 1))).toInt)
    (hw0 : ∀ (e : Fin m), d.window (ix1 e) 0 = 0)
    (x : (⟨1, ![n]⟩ : Shape).Idx → EReal) (idx : IVec (⟨2, ![m, 1]⟩ : Shape) bw)
    (upd : (⟨1, ![m]⟩ : Shape).Idx → EReal) (p : Fin n) :
    Ideal.hostScatterAdd d x idx upd (ix1 p) = x (ix1 p) + ∑ e ∈ into idx p, upd (ix1 e) := by
  have key : ∀ (e : Fin m), d.resultIdx? (ix1 e) idx = some (ix1 p) ↔ (idx (ix2 e (0 : Fin 1))).toInt = (p.val : Int) := by
    intro e
    unfold ScatterDims.resultIdx?
    constructor
    · intro h
      split at h
      · rename_i hb
        have hf := Option.some.inj h
        have h0 : (d.start (ix1 e) idx 0 + (d.window (ix1 e) 0 : Int)).toNat = p.val := congrArg (fun f => (f 0).val) hf
        have hb0 := (hb 0).1
        rw [hs0, hw0] at h0 hb0
        omega
      · exact absurd h (by simp)
    · intro h0
      have hb : ∀ a, 0 ≤ d.start (ix1 e) idx a + (d.window (ix1 e) a : Int)
          ∧ d.start (ix1 e) idx a + (d.window (ix1 e) a : Int) < ((⟨1, ![n]⟩ : Shape).size a : Int) := by
        intro a
        match a with
        | ⟨0, _⟩ =>
          show 0 ≤ d.start (ix1 e) idx 0 + (d.window (ix1 e) 0 : Int)
            ∧ d.start (ix1 e) idx 0 + (d.window (ix1 e) 0 : Int) < (n : Int)
          rw [hs0, hw0, h0]; have := p.isLt; omega
      rw [dif_pos hb]
      refine congrArg some (funext fun a => Fin.ext ?_)
      match a with
      | ⟨0, _⟩ =>
        show (d.start (ix1 e) idx 0 + (d.window (ix1 e) 0 : Int)).toNat = p.val
        rw [hs0, hw0, h0]; omega
  unfold Ideal.hostScatterAdd
  refine congrArg (x (ix1 p) + ·) ?_
  unfold into
  rw [Finset.sum_filter, Finset.sum_filter]
  rw [← Equiv.sum_comp (Equiv.ofBijective (fun e : Fin m => (ix1 e : (⟨1, ![m]⟩ : Shape).Idx))
    ⟨fun a b h => congrFun h 0, fun j => ⟨j 0, (eq_ix1 j).symm⟩⟩)]
  refine Finset.sum_congr rfl fun e _ => ?_
  show (if d.resultIdx? (ix1 e) idx = some (ix1 p) then upd (ix1 e) else 0) = _
  by_cases hp : (idx (ix2 e (0 : Fin 1))).toInt = (p.val : Int)
  · rw [if_pos hp, if_pos ((key e).2 hp)]
  · rw [if_neg hp, if_neg (fun h => hp ((key e).1 h))]

/-- GENERAL LEMMA. The same two readings for the host's operation at the exact values. -/
theorem host_scatterAdd_rows {n m w bw : ℕ}
    (d : ScatterDims (⟨2, ![n, w]⟩ : Shape) (⟨2, ![m, 1]⟩ : Shape) (⟨2, ![m, w]⟩ : Shape))
    (hs0 : ∀ (e : Fin m) (b : Fin w) (idx : IVec (⟨2, ![m, 1]⟩ : Shape) bw),
      d.start (ix2 e b) idx 0 = (idx (ix2 e (0 : Fin 1))).toInt)
    (hs1 : ∀ (e : Fin m) (b : Fin w) (idx : IVec (⟨2, ![m, 1]⟩ : Shape) bw), d.start (ix2 e b) idx 1 = 0)
    (hw0 : ∀ (e : Fin m) (b : Fin w), d.window (ix2 e b) 0 = 0)
    (hw1 : ∀ (e : Fin m) (b : Fin w), d.window (ix2 e b) 1 = b.val)
    (x : FVec Ideal (⟨2, ![n, w]⟩ : Shape) .f32) (idx : IVec (⟨2, ![m, 1]⟩ : Shape) bw)
    (upd : FVec Ideal (⟨2, ![m, w]⟩ : Shape) .f32) (p : Fin n) (q : Fin w) :
    Host.scatterAdd d x idx upd (ix2 p q) = x (ix2 p q) + ∑ e ∈ into idx p, upd (ix2 e q) :=
  scatterAdd_rows d hs0 hs1 hw0 hw1 x idx upd p q

theorem host_scatterAdd_vec {n m bw : ℕ}
    (d : ScatterDims (⟨1, ![n]⟩ : Shape) (⟨2, ![m, 1]⟩ : Shape) (⟨1, ![m]⟩ : Shape))
    (hs0 : ∀ (e : Fin m) (idx : IVec (⟨2, ![m, 1]⟩ : Shape) bw), d.start (ix1 e) idx 0 = (idx (ix2 e (0 : Fin 1))).toInt)
    (hw0 : ∀ (e : Fin m), d.window (ix1 e) 0 = 0)
    (x : FVec Ideal (⟨1, ![n]⟩ : Shape) .f32) (idx : IVec (⟨2, ![m, 1]⟩ : Shape) bw)
    (upd : FVec Ideal (⟨1, ![m]⟩ : Shape) .f32) (p : Fin n) :
    Host.scatterAdd d x idx upd (ix1 p) = x (ix1 p) + ∑ e ∈ into idx p, upd (ix1 e) :=
  scatterAdd_vec d hs0 hw0 x idx upd p

/-- GENERAL LEMMA. The entrywise maximum read at an index. -/
theorem maximumf_at {s : Shape} (a b : FVec Ideal s .f32) (i : s.Idx) : maximumf a b i = max (a i) (b i) := rfl

end Cert.LibEdges

end
-- ==== Proof.RefValue.lean ====
/-
  The reference computes the segment means.

  Its two scatter-adds put, onto zero arrays, every row of the matrix on the row of its segment id and a one on the
  entry of its segment id; an id outside 0..15 lands nowhere. So entry (p, q) of the first is the sum over the rows
  of segment p of their entries in column q and entry p of the second is the number of those rows; the quotient of
  the first by the larger of the second and one, spread along the columns, is the mean.
-/
import proofs.«140087_j35725537968381_1_alg».proof.Proof.Gen.ReferenceIdeal.Read
import proofs.«140087_j35725537968381_1_alg».proof.Proof.LibEdges
import proofs.«140087_j35725537968381_1_alg».proof.Proof.Spec
import Idealize.ShloMosaic.PureOps.IdealRules
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Read Cert.SegMean

/-- The word of one denotes one. -/
theorem one_word : Ideal.ofBits .f32 0x3F800000#32 = 1 := IdealRules.sign_bit.ideal_onePat .f32

/-- The rows the id column sends to segment `p` are the rows of segment `p`. -/
theorem into_eq (x1 : IVec S1000000 32) (p : Fin 16) :
    Cert.LibEdges.into (val_main_v1 (F := Ideal) x1) p = rowsOf (idOf x1) p.val := by
  unfold Cert.LibEdges.into rowsOf
  refine Finset.filter_congr fun e _ => ?_
  have hi : idx_main_v1 (ix2 e (0 : Fin 1)) = ix1 e := funext fun a => Fin.ext (by match a with | ⟨0, _⟩ => rfl)
  rw [val_main_v1_apply, hi]

/-- The same for the second copy of the id column. -/
theorem into_eq' (x1 : IVec S1000000 32) (p : Fin 16) :
    Cert.LibEdges.into (val_main_v5 (F := Ideal) x1) p = rowsOf (idOf x1) p.val := by
  unfold Cert.LibEdges.into rowsOf
  refine Finset.filter_congr fun e _ => ?_
  have hi : idx_main_v5 (ix2 e (0 : Fin 1)) = ix1 e := funext fun a => Fin.ext (by match a with | ⟨0, _⟩ => rfl)
  rw [val_main_v5_apply, hi]

/-- Where an update lands: the rows record's start on the row axis is the id read signed, on the column axis zero;
    its window coordinate is zero on the row axis and the column on the column axis. -/
theorem rows_start0 (e : Fin 1000000) (b : Fin 256) (idx : IVec S1000000x1 32) :
    scatter_S16x256_S1000000x1_S1000000x256_1_0_0_1.start (ix2 e b) idx 0 = (idx (ix2 e (0 : Fin 1))).toInt := by
  unfold ScatterDims.start
  rw [dif_pos (show (0 : Fin 2) ∈ scatter_S16x256_S1000000x1_S1000000x256_1_0_0_1.scatterDimsToOperandDims from List.mem_singleton.mpr rfl)]
  refine congrArg (fun k => (idx k).toInt) (funext fun a => Fin.ext ?_)
  match a with
  | ⟨0, _⟩ => rfl
  | ⟨1, _⟩ => rfl

theorem rows_start1 (e : Fin 1000000) (b : Fin 256) (idx : IVec S1000000x1 32) :
    scatter_S16x256_S1000000x1_S1000000x256_1_0_0_1.start (ix2 e b) idx 1 = 0 := by
  unfold ScatterDims.start
  rw [dif_neg (show ¬ (1 : Fin 2) ∈ scatter_S16x256_S1000000x1_S1000000x256_1_0_0_1.scatterDimsToOperandDims from by decide)]

theorem rows_window0 (e : Fin 1000000) (b : Fin 256) :
    scatter_S16x256_S1000000x1_S1000000x256_1_0_0_1.window (ix2 e b) 0 = 0 := by
  unfold ScatterDims.window
  rw [dif_neg (by decide)]

theorem rows_window1 (e : Fin 1000000) (b : Fin 256) :
    scatter_S16x256_S1000000x1_S1000000x256_1_0_0_1.window (ix2 e b) 1 = b.val := by
  unfold ScatterDims.window
  rw [dif_pos (by decide)]
  rfl

theorem vec_start0 (e : Fin 1000000) (idx : IVec S1000000x1 32) :
    scatter_S16_S1000000x1_S1000000_n_0_0_1.start (ix1 e) idx 0 = (idx (ix2 e (0 : Fin 1))).toInt := by
  unfold ScatterDims.start
  rw [dif_pos (show (0 : Fin 1) ∈ scatter_S16_S1000000x1_S1000000_n_0_0_1.scatterDimsToOperandDims from List.mem_singleton.mpr rfl)]
  refine congrArg (fun k => (idx k).toInt) (funext fun a => Fin.ext ?_)
  match a with
  | ⟨0, _⟩ => rfl
  | ⟨1, _⟩ => rfl

theorem vec_window0 (e : Fin 1000000) :
    scatter_S16_S1000000x1_S1000000_n_0_0_1.window (ix1 e) 0 = 0 := by
  unfold ScatterDims.window
  rw [dif_neg (by decide)]

/-- The reference's result, stage by stage, is the array of segment means. -/
theorem ref_is_mean (x0 : FVec Ideal S1000000x256 .f32) (x1 : IVec S1000000 32) :
    val_main_v11 (F := Ideal) x0 x1 = mean x0 x1 := by
  funext j
  obtain ⟨p, q, rfl⟩ : ∃ (p : Fin 16) (q : Fin 256), j = ix2 p q := ⟨j 0, j 1, eq_ix2 j⟩
  rw [val_main_v11_apply, val_main_v10_apply, val_main_v9_apply, val_main_v8_apply, val_main_v7_apply, val_main_cst_2_apply]
  have i9 : idx_main_v9 (idx_main_v10 (ix2 p q)) = ix1 p := funext fun a => Fin.ext (by match a with | ⟨0, _⟩ => rfl)
  rw [i9]
  unfold val_main_v2 val_main_v6
  rw [Cert.LibEdges.host_scatterAdd_rows scatter_S16x256_S1000000x1_S1000000x256_1_0_0_1 rows_start0 rows_start1 rows_window0 rows_window1 _ _ _ p q,
    Cert.LibEdges.host_scatterAdd_vec scatter_S16_S1000000x1_S1000000_n_0_0_1 vec_start0 vec_window0 _ _ _ p]
  have h3 : ∀ e : Fin 1000000, val_main_v3 (F := Ideal) (ix1 e) = 1 := fun e => by
    rw [val_main_v3_apply, val_main_cst_0_apply]; exact one_word
  rw [into_eq, into_eq', val_main_v0_apply, val_main_cst_apply, val_main_v4_apply, val_main_cst_1_apply]
  simp only [h3, Ideal.ofBits_def, Ideal.ofBits_zero_f32, zero_add, Ideal.hostDivf_def, Ideal.maximumf_def]
  rfl

end Cert.ReferenceIdeal.RefValue

end
-- ==== Proof.lean ====
/-
  Per-segment mean pooling: the kernel program against the scatter-add reference, over the extended reals.

  Both programs take a [1000000, 256] matrix and a segment id per row and return the [16, 256] array whose entry
  (p, q) is the sum of the entries (n, q) over the rows n with id p, divided by the larger of the number of those
  rows and one (Proof/Spec.lean). The reference forms the sums and the counts by two scatter-adds onto zero arrays
  (Proof/RefValue.lean). The kernel streams the rows in two halves of fifty tiles of ten thousand rows; for each
  tile it multiplies the transposed one-hot matrix of the tile's ids with the tile and adds the product, and the
  one-hot matrix's column sums, to blocks it carries along the half (Proof/Payload.lean, Proof/Cases.lean,
  Proof/Blocks.lean, Proof/Accumulate.lean); each half's blocks are written back once (Proof/Final.lean) and the
  host adds the halves and divides (Proof/Tail.lean). The two results are one function of the arguments because a
  one-hot weighted sum over all rows is the sum over the segment's rows and sums may be regrouped freely
  (Proof/KernelValue.lean); neither step needs the entries to be finite, so the precondition is not opened.
  The three frames: the two kernel programs' are the generated frame runs, the reference's is its generated run
  with the result dropped. The idealization rewrote nothing, so the preservation claim is trivial.
-/
import proofs.«140087_j35725537968381_1_alg».proof.Defs
import proofs.«140087_j35725537968381_1_alg».proof.Proof.Gen.Kernel
import proofs.«140087_j35725537968381_1_alg».proof.Proof.Gen.Kernel.Skeleton
import proofs.«140087_j35725537968381_1_alg».proof.Proof.Gen.Kernel.Launch
import proofs.«140087_j35725537968381_1_alg».proof.Proof.Gen.Kernel.Points
import proofs.«140087_j35725537968381_1_alg».proof.Proof.Gen.Kernel.Frame
import proofs.«140087_j35725537968381_1_alg».proof.Proof.Gen.KernelIdeal
import proofs.«140087_j35725537968381_1_alg».proof.Proof.Gen.KernelIdeal.Skeleton
import proofs.«140087_j35725537968381_1_alg».proof.Proof.Gen.KernelIdeal.Launch
import proofs.«140087_j35725537968381_1_alg».proof.Proof.Gen.KernelIdeal.Points
import proofs.«140087_j35725537968381_1_alg».proof.Proof.Gen.KernelIdeal.Frame
import proofs.«140087_j35725537968381_1_alg».proof.Proof.Gen.ReferenceIdeal
import proofs.«140087_j35725537968381_1_alg».proof.Proof.Gen.ReferenceIdeal.Run
import proofs.«140087_j35725537968381_1_alg».proof.Proof.Gen.ReferenceIdeal.Read
import proofs.«140087_j35725537968381_1_alg».proof.Proof.Gen.Pre_finite_inputs
import proofs.«140087_j35725537968381_1_alg».proof.Proof.KernelValue
import proofs.«140087_j35725537968381_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen in
/-- The kernel program's run at the exact values: it ends with the result buffer at the segment means of its
    arguments and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
        = Cert.SegMean.mean (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans
        ((Cert.KernelIdeal.Tail.result_eq m c).trans (Cert.KernelIdeal.KernelValue.kernel_is_mean m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- At the exact values both programs end with the segment means of arguments that agree. -/
theorem algebraic : Cert.algebraic_KernelIdeal_ReferenceIdeal := by
  intro m ρ m' ρ' _ hagree
  refine ⟨fun c => Cert.SegMean.mean (m ((c.tc : Thread _ Cert.KernelIdeal.τ).loc Cert.KernelIdeal.main_arg0))
    (m ((c.tc : Thread _ Cert.KernelIdeal.τ).loc Cert.KernelIdeal.main_arg1)), kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_is_mean, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
